-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S2x100000 : Shape := ⟨2, ![2, 100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S128x64 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg7
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg8
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x500000 32) (main_arg2 : IVec S2x100000 32) (main_arg3 : IVec S2x100000 32) (main_arg4 : FVec F S128x128 .f32) (main_arg5 : FVec F S128x128 .f32) (main_arg6 : FVec F S128 .f32) (main_arg7 : FVec F S128x64 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_v13 main_v16
-- ==== Kernel.lean ====
abbrev S100000x128 : Shape := ⟨2, ![100000, 128]⟩
abbrev S2x500000 : Shape := ⟨2, ![2, 500000]⟩
abbrev S2x100000 : Shape := ⟨2, ![2, 100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S100000 : Shape := ⟨1, ![100000]⟩
abbrev S500000x1 : Shape := ⟨2, ![500000, 1]⟩
abbrev S100000x1 : Shape := ⟨2, ![100000, 1]⟩
abbrev S500000x128 : Shape := ⟨2, ![500000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩
abbrev S1x100000 : Shape := ⟨2, ![1, 100000]⟩

abbrev nBuf : Space → Nat
  | .hbm => 108
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S2x100000, .i32⟩
  | .hbm, ⟨3, _⟩ => ⟨S2x100000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S1x500000, .i32⟩
  | .hbm, ⟨11, _⟩ => ⟨S500000, .i32⟩
  | .hbm, ⟨12, _⟩ => ⟨S1x500000, .i32⟩
  | .hbm, ⟨13, _⟩ => ⟨S500000, .i32⟩
  | .hbm, ⟨14, _⟩ => ⟨S_, .f32⟩
  | .hbm, ⟨15, _⟩ => ⟨S500000, .f32⟩
  | .hbm, ⟨16, _⟩ => ⟨S_, .f32⟩
  | .hbm, ⟨17, _⟩ => ⟨S100000, .f32⟩
  | .hbm, ⟨18, _⟩ => ⟨S500000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x128, .f32⟩
  | .hbm, ⟨37, _⟩ => ⟨S_, .f32⟩
  | .hbm, ⟨38, _⟩ => ⟨S100000x128, .f32⟩
  | .hbm, ⟨39, _⟩ => ⟨S500000x1, .i32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S500000, .i32⟩
  | .hbm, ⟨45, _⟩ => ⟨S500000, .i1⟩
  | .hbm, ⟨46, _⟩ => ⟨S_, .i32⟩
  | .hbm, ⟨47, _⟩ => ⟨S500000, .i32⟩
  | .hbm, ⟨48, _⟩ => ⟨S500000, .i32⟩
  | .hbm, ⟨49, _⟩ => ⟨S500000, .i32⟩
  | .hbm, ⟨50, _⟩ => ⟨S500000x1, .i32⟩
  | .hbm, ⟨51, _⟩ => ⟨S500000x128, .f32⟩
  | .hbm, ⟨52, _⟩ => ⟨S_, .f32⟩
  | .hbm, ⟨53, _⟩ => ⟨S100000x128, .f32⟩
  | .hbm, ⟨54, _⟩ => ⟨S500000x1, .i32⟩
  | .hbm, ⟨55, _⟩ => ⟨S100000x128, .f32⟩
  | .hbm, ⟨56, _⟩ => ⟨S1x64, .f32⟩
  | .hbm, ⟨57, _⟩ => ⟨S100000x64, .f32⟩
  | .hbm, ⟨58, _⟩ => ⟨S1x100000, .i32⟩
  | .hbm, ⟨59, _⟩ => ⟨S100000, .i32⟩
  | .hbm, ⟨60, _⟩ => ⟨S1x100000, .i32⟩
  | .hbm, ⟨61, _⟩ => ⟨S100000, .i32⟩
  | .hbm, ⟨62, _⟩ => ⟨S1x100000, .i32⟩
  | .hbm, ⟨63, _⟩ => ⟨S100000, .i32⟩
  | .hbm, ⟨64, _⟩ => ⟨S1x100000, .i32⟩
  | .hbm, ⟨65, _⟩ => ⟨S100000, .i32⟩
  | .hbm, ⟨66, _⟩ => ⟨S_, .i32⟩
  | .hbm, ⟨67, _⟩ => ⟨S100000, .i32⟩
  | .hbm, ⟨68, _⟩ => ⟨S100000, .i1⟩
  | .hbm, ⟨69, _⟩ => ⟨S_, .i32⟩
  | .hbm, ⟨70, _⟩ => ⟨S100000, .i32⟩
  | .hbm, ⟨71, _⟩ => ⟨S100000, .i32⟩
  | .hbm, ⟨72, _⟩ => ⟨S100000, .i32⟩
  | .hbm, ⟨73, _⟩ => ⟨S100000x1, .i32⟩
  | .hbm, ⟨74, _⟩ => ⟨S100000x64, .f32⟩
  | .hbm, ⟨75, _⟩ => ⟨S_, .i32⟩
  | .hbm, ⟨76, _⟩ => ⟨S100000, .i32⟩
  | .hbm, ⟨77, _⟩ => ⟨S100000, .i1⟩
  | .hbm, ⟨78, _⟩ => ⟨S_, .i32⟩
  | .hbm, ⟨79, _⟩ => ⟨S100000, .i32⟩
  | .hbm, ⟨80, _⟩ => ⟨S100000, .i32⟩
  | .hbm, ⟨81, _⟩ => ⟨S100000, .i32⟩
  | .hbm, ⟨82, _⟩ => ⟨S100000x1, .i32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000, .f32⟩
  | .hbm, ⟨87, _⟩ => ⟨S_, .i32⟩
  | .hbm, ⟨88, _⟩ => ⟨S100000, .i32⟩
  | .hbm, ⟨89, _⟩ => ⟨S100000, .i1⟩
  | .hbm, ⟨90, _⟩ => ⟨S_, .i32⟩
  | .hbm, ⟨91, _⟩ => ⟨S100000, .i32⟩
  | .hbm, ⟨92, _⟩ => ⟨S100000, .i32⟩
  | .hbm, ⟨93, _⟩ => ⟨S100000, .i32⟩
  | .hbm, ⟨94, _⟩ => ⟨S100000x1, .i32⟩
  | .hbm, ⟨95, _⟩ => ⟨S100000x64, .f32⟩
  | .hbm, ⟨96, _⟩ => ⟨S_, .i32⟩
  | .hbm, ⟨97, _⟩ => ⟨S100000, .i32⟩
  | .hbm, ⟨98, _⟩ => ⟨S100000, .i1⟩
  | .hbm, ⟨99, _⟩ => ⟨S_, .i32⟩
  | .hbm, ⟨100, _⟩ => ⟨S100000, .i32⟩
  | .hbm, ⟨101, _⟩ => ⟨S100000, .i32⟩
  | .hbm, ⟨102, _⟩ => ⟨S100000, .i32⟩
  | .hbm, ⟨103, _⟩ => ⟨S100000x1, .i32⟩
  | .hbm, ⟨104, _⟩ => ⟨S100000x64, .f32⟩
  | .hbm, ⟨105, _⟩ => ⟨S100000x64, .f32⟩
  | .hbm, ⟨106, _⟩ => ⟨S_, .f32⟩
  | .hbm, ⟨107, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_17 : Ref sig .tc := ⟨.hbm, 106, rfl⟩
abbrev main_v75 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S100000_S100000x1_0 : S100000.BroadcastsInDim S100000x1 (![0] : Fin 1 → Fin S100000x1.rank)
  reducesTo_S100000x64_S100000_d1 : S100000x64.ReducesTo [1] S100000
  h_S_ : 0 < S_.numel
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S100000x1_S100000x64_1_0_n_n_0_1_164_wf : GatherDims.WF S100000x64 S100000x1 S100000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S2x100000 : Shape := ⟨2, ![2, 100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩
abbrev S1x100000 : Shape := ⟨2, ![1, 100000]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x500000, .i32⟩
  | 2 => ⟨S2x100000, .i32⟩
  | 3 => ⟨S2x100000, .i32⟩
  | 4 => ⟨S128x128, .f32⟩
  | 5 => ⟨S128x128, .f32⟩
  | 6 => ⟨S128, .f32⟩
  | 7 => ⟨S128x64, .f32⟩
  | 8 => ⟨S128x64, .f32⟩
  | 9 => ⟨S64, .f32⟩
  | 10 => ⟨S1x500000, .i32⟩
  | 11 => ⟨S500000, .i32⟩
  | 12 => ⟨S1x500000, .i32⟩
  | 13 => ⟨S500000, .i32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x128, .f32⟩
  | 23 => ⟨S_, .f32⟩
  | 24 => ⟨S100000x128, .f32⟩
  | 25 => ⟨S500000x1, .i32⟩
  | 26 => ⟨S100000x128, .f32⟩
  | 27 => ⟨S_, .f32⟩
  | 28 => ⟨S500000, .f32⟩
  | 29 => ⟨S_, .f32⟩
  | 30 => ⟨S100000, .f32⟩
  | 31 => ⟨S500000x1, .i32⟩
  | 32 => ⟨S100000, .f32⟩
  | 33 => ⟨S_, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S_, .f32⟩
  | 59 => ⟨S100000x128, .f32⟩
  | 60 => ⟨S500000x1, .i32⟩
  | 61 => ⟨S100000x128, .f32⟩
  | 62 => ⟨S_, .f32⟩
  | 63 => ⟨S500000, .f32⟩
  | 64 => ⟨S_, .f32⟩
  | 65 => ⟨S100000, .f32⟩
  | 66 => ⟨S500000x1, .i32⟩
  | 67 => ⟨S100000, .f32⟩
  | 68 => ⟨S_, .f32⟩
  | 69 => ⟨S_, .f32⟩
  | 70 => ⟨S100000, .f32⟩
  | 71 => ⟨S100000, .f32⟩
  | 72 => ⟨S100000x1, .f32⟩
  | 73 => ⟨S100000x128, .f32⟩
  | 74 => ⟨S100000x128, .f32⟩
  | 75 => ⟨S100000x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S1x100000, .i32⟩
  | 82 => ⟨S100000, .i32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000x64, .f32⟩
  | 92 => ⟨S1x100000, .i32⟩
  | 93 => ⟨S100000, .i32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000x64, .f32⟩
  | 103 => ⟨S100000x64, .f32⟩
  | 104 => ⟨S_, .f32⟩
  | 105 => ⟨S100000, .f32⟩
  | 106 => ⟨S1x100000, .i32⟩
  | 107 => ⟨S100000, .i32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S100000x64, .f32⟩
  | 117 => ⟨S1x100000, .i32⟩
  | 118 => ⟨S100000, .i32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_15 : Ref sig .tc := ⟨.hbm, 108, rfl⟩
abbrev main_v75 : Ref sig .tc := ⟨.hbm, 109, rfl⟩
abbrev main_v76 : Ref sig .tc := ⟨.hbm, 110, rfl⟩
abbrev main_c_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_17 : Ref sig .tc := ⟨.hbm, 119, rfl⟩
abbrev main_v84 : Ref sig .tc := ⟨.hbm, 120, rfl⟩
abbrev main_v85 : Ref sig .tc := ⟨.hbm, 121, rfl⟩
abbrev main_c_18 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  reducesTo_S100000x64_S100000_d1 : S100000x64.ReducesTo [1] S100000
  h_S_ : 0 < S_.numel
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S100000x1_S100000x64_1_0_n_n_0_1_164_wf : GatherDims.WF S100000x64 S100000x1 S100000x64 [1] [0] [] [0] [] 1 ![1, 64]

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

class Facts : Prop extends Facts₀ where

variable [Facts]
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.LibMatRows.lean ====
/-
  A matrix product computed one block of rows at a time is the whole product.

  Let X be an M × K matrix, W a K × N matrix, and let x0 be m consecutive rows of X (row p of x0 is row P of X).  The
  product of x0 with W accumulated into the zero matrix has, at (p, q), the sum over k of x0[p, k] · W[k, q]; the host's
  whole product X · W has, at (P, q), the sum over k of X[P, k] · W[k, q].  The two sums have equal terms, so a grid of
  row blocks that tiles X writes exactly the whole product.  On the extended reals nothing else is involved: no
  rounding, no order of summation.  All extents are variables; the records' own facts are hypotheses.
-/
import Idealize.ShloMosaic.Lib.Pipeline.Value
import Idealize.ShloMosaic.Lib.ValueIdx
import Idealize.ShloMosaic.PureOps.Ideal.Laws
import proofs.«135223_j69234872812250_2_alg».proof.Proof.LibLayout
import proofs.«135223_j69234872812250_2_alg».proof.Proof.LibHostDot

noncomputable section

namespace Cert.LibMatRows

open Idealize.ShloMosaic Idealize.ShloMosaic.ValueIdx

/-- Entry (p, q) of a block's product into zero is entry (P, q) of the whole host product, when row p of the block is
    row P of the whole left operand and the right operands agree on column q. -/
theorem block_entry {M m K N : ℕ} {φ₁ φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal ⟨2, ![M, K]⟩ .f32) (W : FVec Ideal ⟨2, ![K, N]⟩ .f32)
    (x0 : FVec Ideal ⟨2, ![m, K]⟩ φ₁) (w0 : FVec Ideal ⟨2, ![K, N]⟩ φ₂)
    (p : Fin m) (q : Fin N) (P : Fin M)
    (hx : ∀ k : Fin K, x0 (ix2 p k) = X (ix2 P k)) (hw : ∀ k : Fin K, w0 (ix2 k q) = W (ix2 k q)) :
    matmul dB none x0 w0 (constant ⟨2, ![m, N]⟩ .f32 0x00000000#32) (ix2 p q)
      = Host.dotGeneral dW none X W (ix2 P q) := by
  rw [Cert.LibLayout.matmul_rows_cols_apply dB hrB hsB hlcB hrcB hl0B hr1B,
    Cert.LibHostDot.dotGeneral_rows_cols_apply dW hrW hsW hlcW hrcW hl0W hr1W]
  refine Finset.sum_congr rfl fun k _ => ?_
  rw [hx k, hw k]

end Cert.LibMatRows

end
-- ==== Proof.LibCombine.lean ====
/-
  Sums of per-relation contributions and bias rows, rectified: the vector unit's spelling against the host's.

  A bias row r (a 1 × n matrix) broadcast down the rows of a matrix has r[0, q] at entry (p, q), whether it is spelt as a
  trailing-axes broadcast of a block or as a broadcast along named axes of the whole matrix.  The kernel adds three
  contributions and three bias rows from left to right, (((((x0 + y0) + x1) + y1) + x2) + y2); the host adds each
  contribution to its own bias first and then adds the three, ((x0 + y0) + (x1 + y1)) + (x2 + y2).  Addition on the
  extended reals is associative (and commutative), with no finiteness needed, so the two agree entry by entry; the
  maximum against zero is then taken of equal numbers.  A vector reshaped to one row is the same row as the vector given
  a leading unit axis.  All extents are variables.
-/
import Idealize.ShloMosaic.PureOps.Ideal.Laws
import Idealize.ShloMosaic.Lib.ValueIdx
import Idealize.ShloMosaic.Lib.Pipeline.Value

noncomputable section

namespace Cert.LibCombine

open Idealize.ShloMosaic Idealize.ShloMosaic.ValueIdx

/-- A coordinate below an extent is itself, or zero when the extent is one. -/
theorem val_eq_ite {n : Nat} (a : Fin n) : a.val = if n = 1 then 0 else a.val := by
  split
  · have := a.isLt; omega
  · rfl

/-- A row (1 × n) cast to its own shape and broadcast down a rows reads, at (p, q), the row at q. -/
theorem blockRow_apply {α : Type} {a n : Nat} (r : (⟨2, ![1, n]⟩ : Shape).Idx → α)
    (h1 : (⟨2, ![1, n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ r h1) h2 (ix2 p q) = r (ix2 0 q) := by
  rw [shapeCast_self]
  exact broadcastTo_apply _ h2 (ix2 p q) (ix2 0 q) (fun c => by
    match c with
    | ⟨0, _⟩ => show (0 : Nat) = if (1 : Nat) = 1 then 0 else _; rw [if_pos rfl]
    | ⟨1, _⟩ => exact val_eq_ite (n := n) q)

/-- A row (1 × n) broadcast along both axes down A rows reads, at (P, q), the row at q. -/
theorem wholeRow_apply {α : Type} {A n : Nat} (r : (⟨2, ![1, n]⟩ : Shape).Idx → α)
    (h4 : (⟨2, ![1, n]⟩ : Shape).BroadcastsInDim ⟨2, ![A, n]⟩ (![0, 1] : Fin 2 → Fin 2)) (P : Fin A) (q : Fin n) :
    broadcastInDim ⟨2, ![A, n]⟩ ![0, 1] h4 r (ix2 P q) = r (ix2 0 q) :=
  broadcastInDim_apply _ h4 _ (ix2 P q) (ix2 0 q) (fun c => by
    match c with
    | ⟨0, _⟩ => show (0 : Nat) = if (1 : Nat) = 1 then 0 else _; rw [if_pos rfl]
    | ⟨1, _⟩ => exact val_eq_ite (n := n) q)

/-- A vector of length n reshaped to one row is the vector given a leading unit axis. -/
theorem reshapeRow_eq {α : Type} {n : Nat} (b : (⟨1, ![n]⟩ : Shape).Idx → α)
    (h0 : (⟨1, ![n]⟩ : Shape).ShapeCasts ⟨2, ![1, n]⟩)
    (h3 : (⟨1, ![n]⟩ : Shape).BroadcastsInDim ⟨2, ![1, n]⟩ (![1] : Fin 1 → Fin 2)) :
    shapeCast ⟨2, ![1, n]⟩ b h0 = broadcastInDim ⟨2, ![1, n]⟩ ![1] h3 b := by
  funext i
  obtain ⟨z, q, rfl⟩ : ∃ (z : Fin 1) (q : Fin n), i = ix2 z q := ⟨i 0, i 1, eq_ix2 i⟩
  rw [broadcastInDim_apply _ h3 b (ix2 z q) (ix1 q) (fun c => by
    match c with
    | ⟨0, _⟩ => exact val_eq_ite (n := n) q)]
  refine shapeCast_apply b h0 (ix2 z q) (ix1 q) ?_
  rw [Shape.rowMajor_val_one, Shape.rowMajor_val_two]
  have hz : z.val = 0 := by have := z.isLt; omega
  show q.val = z.val * n + q.val
  rw [hz]; omega

/-- THREE CONTRIBUTIONS WITH THEIR BIAS ROWS, RECTIFIED, at one entry: the kernel's left-to-right sum over a block is the
    host's grouped sum over the whole matrix, when the block's entry (p, q) is the whole's entry (P, q) and the block's bias
    rows are the whole bias rows at column q. -/
theorem combine3_entry {a A n : Nat} (a0 a1 a2 : FVec Ideal ⟨2, ![a, n]⟩ .f32) (r0 r1 r2 : FVec Ideal ⟨2, ![1, n]⟩ .f32)
    (A0 A1 A2 : FVec Ideal ⟨2, ![A, n]⟩ .f32) (R0 R1 R2 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A)
    (e0 : a0 (ix2 p q) = A0 (ix2 P q)) (e1 : a1 (ix2 p q) = A1 (ix2 P q)) (e2 : a2 (ix2 p q) = A2 (ix2 P q))
    (f0 : r0 (ix2 0 q) = R0 (ix2 0 q)) (f1 : r1 (ix2 0 q) = R1 (ix2 0 q)) (f2 : r2 (ix2 0 q) = R2 (ix2 0 q)) :
    maximumf (addf (addf (addf (addf (addf a0
        (broadcastTo ⟨2, ![a, n]⟩ (shapeCast ⟨2, ![1, n]⟩ r0 h1) h2)) a1)
        (broadcastTo ⟨2, ![a, n]⟩ (shapeCast ⟨2, ![1, n]⟩ r1 h1) h2)) a2)
        (broadcastTo ⟨2, ![a, n]⟩ (shapeCast ⟨2, ![1, n]⟩ r2 h1) h2))
        (broadcast ⟨2, ![a, n]⟩ (Scalar.ofBits (F := Ideal) .f32 0x00000000#32)) (ix2 p q)
      = maximumf (addf (addf (addf A0 (broadcastInDim ⟨2, ![A, n]⟩ ![0, 1] h4 R0))
          (addf A1 (broadcastInDim ⟨2, ![A, n]⟩ ![0, 1] h4 R1)))
          (addf A2 (broadcastInDim ⟨2, ![A, n]⟩ ![0, 1] h4 R2)))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, blockRow_apply r1 h1 h2 p q, blockRow_apply r2 h1 h2 p q,
    wholeRow_apply R0 h4 P q, wholeRow_apply R1 h4 P q, wholeRow_apply R2 h4 P q, e0, e1, e2, f0, f1, f2]
  simp only [Ideal.addf_def, add_assoc]

/-- ONE CONTRIBUTION WITH ITS BIAS ROW, RECTIFIED, at one entry. -/
theorem combine1_entry {a A n : Nat} (a0 : FVec Ideal ⟨2, ![a, n]⟩ .f32) (r0 : FVec Ideal ⟨2, ![1, n]⟩ .f32)
    (A0 : FVec Ideal ⟨2, ![A, n]⟩ .f32) (R0 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A) (e0 : a0 (ix2 p q) = A0 (ix2 P q)) (f0 : r0 (ix2 0 q) = R0 (ix2 0 q)) :
    maximumf (addf a0 (broadcastTo ⟨2, ![a, n]⟩ (shapeCast ⟨2, ![1, n]⟩ r0 h1) h2))
        (broadcast ⟨2, ![a, n]⟩ (Scalar.ofBits (F := Ideal) .f32 0x00000000#32)) (ix2 p q)
      = maximumf (addf A0 (broadcastInDim ⟨2, ![A, n]⟩ ![0, 1] h4 R0))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, wholeRow_apply R0 h4 P q, e0, f0]

end Cert.LibCombine

end
-- ==== Proof.LibMeanLayer.lean ====
/-
  A dense layer on the mean of neighbour features, one block of rows at a time, against the whole layer.

  Let S be an A × K matrix of neighbour sums, d a vector of A divisors, X an A × K matrix of features, Wl and Wr two
  K × n weight matrices and b a bias vector of length n.  The whole layer is (S / d) · Wl + X · Wr + b, where row P of S is
  divided by d[P] and b is added to every row.  A block computation holds a rows of S and of X (row p of the block is
  row P of the whole), the matching a entries of the column of reciprocals 1 / d, the weights and the bias laid as one
  row; it multiplies each row of its block of S by its reciprocal, takes the two products into zero accumulators, adds
  them and adds the bias row.  On the extended reals s · (1 / d) = s / d whenever d ≠ 0 (both are s · d⁻¹, since
  1 · d⁻¹ = d⁻¹); the two products are the same sums term by term; so the block's entry (p, q) is the whole layer's
  entry (P, q).  A divisor that is a maximum with one is at least one, hence not zero, whatever the other operand is.
  No finiteness is used.  All extents are variables; the product records' own facts are hypotheses.
-/
import Idealize.ShloMosaic.PureOps.Ideal.Laws
import Idealize.ShloMosaic.Lib.ValueIdx
import Idealize.ShloMosaic.Lib.ValueLayout
import Idealize.ShloMosaic.Lib.Pipeline.Value
import proofs.«135223_j69234872812250_2_alg».proof.Proof.LibLayout
import proofs.«135223_j69234872812250_2_alg».proof.Proof.LibHostDot
import proofs.«135223_j69234872812250_2_alg».proof.Proof.LibMatRows
import proofs.«135223_j69234872812250_2_alg».proof.Proof.LibCombine

noncomputable section

namespace Cert.LibMeanLayer

open Idealize.ShloMosaic Idealize.ShloMosaic.ValueIdx

/-- Multiplying by the reciprocal is dividing, off zero: both are `a · d⁻¹`. -/
theorem mul_div_one (a d : EReal) (hd : d ≠ 0) : a * Ideal.div 1 d = Ideal.div a d := by
  unfold Ideal.div
  rw [if_neg hd, if_neg hd, one_mul]

/-- A maximum with one is not zero. -/
theorem max_one_ne_zero (x : EReal) : max (1 : EReal) x ≠ 0 := by
  have h1 : (0 : EReal) < 1 := by exact_mod_cast (zero_lt_one : (0 : ℝ) < 1)
  exact ne_of_gt (lt_of_lt_of_le h1 (le_max_left 1 x))

/-- A vector `[A]` laid as a column `[A, 1]` along the first axis reads, at `(P, u)`, the vector at `P`. -/
theorem col_apply {α : Type} {A : ℕ} (D : (⟨1, ![A]⟩ : Shape).Idx → α)
    (h : (⟨1, ![A]⟩ : Shape).BroadcastsInDim ⟨2, ![A, 1]⟩ (![0] : Fin 1 → Fin 2)) (P : Fin A) (u : Fin 1) :
    broadcastInDim ⟨2, ![A, 1]⟩ ![0] h D (ix2 P u) = D (ix1 P) :=
  broadcastInDim_apply _ h D (ix2 P u) (ix1 P) (fun c => by
    match c with
    | ⟨0, _⟩ => exact Cert.LibCombine.val_eq_ite (n := A) P)

/-- A column `[A, 1]` repeated along the rows of `[A, K]` reads, at `(P, k)`, the column at row `P`. -/
theorem colRows_apply {α : Type} {A K : ℕ} (v : (⟨2, ![A, 1]⟩ : Shape).Idx → α)
    (h : (⟨2, ![A, 1]⟩ : Shape).BroadcastsInDim ⟨2, ![A, K]⟩ (![0, 1] : Fin 2 → Fin 2)) (P : Fin A) (k : Fin K) :
    broadcastInDim ⟨2, ![A, K]⟩ ![0, 1] h v (ix2 P k) = v (ix2 P (0 : Fin 1)) :=
  broadcastInDim_apply _ h v (ix2 P k) (ix2 P (0 : Fin 1)) (fun c => by
    match c with
    | ⟨0, _⟩ => exact Cert.LibCombine.val_eq_ite (n := A) P
    | ⟨1, _⟩ => show (0 : Nat) = if (1 : Nat) = 1 then 0 else _; rw [if_pos rfl])

/-- THE WHOLE LAYER before its activation: `(S / d) · Wl + X · Wr + b` in the host's spelling. -/
def layer {A K n : ℕ} (dW : DotDims ⟨2, ![A, K]⟩ ⟨2, ![K, n]⟩ ⟨2, ![A, n]⟩)
    (hc : (⟨1, ![A]⟩ : Shape).BroadcastsInDim ⟨2, ![A, 1]⟩ (![0] : Fin 1 → Fin 2))
    (hr : (⟨2, ![A, 1]⟩ : Shape).BroadcastsInDim ⟨2, ![A, K]⟩ (![0, 1] : Fin 2 → Fin 2))
    (h3 : (⟨1, ![n]⟩ : Shape).BroadcastsInDim ⟨2, ![1, n]⟩ (![1] : Fin 1 → Fin 2))
    (h4 : (⟨2, ![1, n]⟩ : Shape).BroadcastsInDim ⟨2, ![A, n]⟩ (![0, 1] : Fin 2 → Fin 2))
    (S X : FVec Ideal ⟨2, ![A, K]⟩ .f32) (D : FVec Ideal ⟨1, ![A]⟩ .f32) (Wl Wr : FVec Ideal ⟨2, ![K, n]⟩ .f32)
    (B : FVec Ideal ⟨1, ![n]⟩ .f32) : FVec Ideal ⟨2, ![A, n]⟩ .f32 :=
  addf (addf (Host.dotGeneral dW none (Host.divf S (broadcastInDim ⟨2, ![A, K]⟩ ![0, 1] hr (broadcastInDim ⟨2, ![A, 1]⟩ ![0] hc D))) Wl)
    (Host.dotGeneral dW none X Wr)) (broadcastInDim ⟨2, ![A, n]⟩ ![0, 1] h4 (broadcastInDim ⟨2, ![1, n]⟩ ![1] h3 B))

/-- The block's scaled sums at `(p, k)` are the whole quotient at `(P, k)`: `s · (1 / d) = s / d` off zero. -/
theorem scaled_entry {a A K : ℕ} (sB : FVec Ideal ⟨2, ![a, K]⟩ .f32) (iB : FVec Ideal ⟨2, ![a, 1]⟩ .f32)
    (S : FVec Ideal ⟨2, ![A, K]⟩ .f32) (D : FVec Ideal ⟨1, ![A]⟩ .f32)
    (g1 : (⟨2, ![a, K]⟩ : Shape).ShapeCasts ⟨2, ![a, K]⟩) (g2 : (⟨2, ![a, 1]⟩ : Shape).ShapeCasts ⟨2, ![a, 1]⟩)
    (g3 : (⟨2, ![a, 1]⟩ : Shape).Broadcasts ⟨2, ![a, K]⟩) (hlt : FTy.bf16.bits < FTy.f32.bits)
    (hc : (⟨1, ![A]⟩ : Shape).BroadcastsInDim ⟨2, ![A, 1]⟩ (![0] : Fin 1 → Fin 2))
    (hr : (⟨2, ![A, 1]⟩ : Shape).BroadcastsInDim ⟨2, ![A, K]⟩ (![0, 1] : Fin 2 → Fin 2))
    (p : Fin a) (P : Fin A) (k : Fin K)
    (hs : sB (ix2 p k) = S (ix2 P k)) (hi : iB (ix2 p (0 : Fin 1)) = Ideal.div 1 (D (ix1 P))) (hD : D (ix1 P) ≠ 0) :
    truncf .bf16 (mulf (shapeCast ⟨2, ![a, K]⟩ sB g1) (broadcastTo ⟨2, ![a, K]⟩ (shapeCast ⟨2, ![a, 1]⟩ iB g2) g3)) hlt (ix2 p k)
      = Host.divf S (broadcastInDim ⟨2, ![A, K]⟩ ![0, 1] hr (broadcastInDim ⟨2, ![A, 1]⟩ ![0] hc D)) (ix2 P k) := by
  simp only [truncf, mulf, Host.divf, Ideal.truncf_def, Ideal.mulf_def, Ideal.hostDivf_def]
  rw [shapeCast_self, shapeCast_self, Cert.LibLayout.broadcastTo_a1_ab_apply iB g3 p k, colRows_apply _ hr P k,
    col_apply D hc P 0, hs, hi]
  exact mul_div_one _ _ hD

/-- THE BLOCK'S ENTRY IS THE WHOLE LAYER'S: entry `(p, q)` of the block computation — scaled sums and features, each
    narrowed and multiplied into zero by narrowed weights, added, the bias row added — is entry `(P, q)` of `layer`, when
    row `p` of each block is row `P` of its matrix, the block's reciprocal at `p` is `1 / d[P]` with `d[P] ≠ 0`, the
    block's weights are the weights and its bias row is the bias. `xT` is the block of features as the product takes it. -/
theorem block_entry {a A K n : ℕ} {φx : FTy}
    (dB : DotDims ⟨2, ![a, K]⟩ ⟨2, ![K, n]⟩ ⟨2, ![a, n]⟩) (dW : DotDims ⟨2, ![A, K]⟩ ⟨2, ![K, n]⟩ ⟨2, ![A, n]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (sB : FVec Ideal ⟨2, ![a, K]⟩ .f32) (iB : FVec Ideal ⟨2, ![a, 1]⟩ .f32) (xT : FVec Ideal ⟨2, ![a, K]⟩ φx)
    (wl wr : FVec Ideal ⟨2, ![K, n]⟩ .f32) (rB : FVec Ideal ⟨2, ![1, n]⟩ .f32)
    (S X : FVec Ideal ⟨2, ![A, K]⟩ .f32) (D : FVec Ideal ⟨1, ![A]⟩ .f32) (Wl Wr : FVec Ideal ⟨2, ![K, n]⟩ .f32)
    (B : FVec Ideal ⟨1, ![n]⟩ .f32)
    (g1 : (⟨2, ![a, K]⟩ : Shape).ShapeCasts ⟨2, ![a, K]⟩) (g2 : (⟨2, ![a, 1]⟩ : Shape).ShapeCasts ⟨2, ![a, 1]⟩)
    (g3 : (⟨2, ![a, 1]⟩ : Shape).Broadcasts ⟨2, ![a, K]⟩) (hlt : FTy.bf16.bits < FTy.f32.bits)
    (h1 : (⟨2, ![1, n]⟩ : Shape).ShapeCasts ⟨2, ![1, n]⟩) (h2 : (⟨2, ![1, n]⟩ : Shape).Broadcasts ⟨2, ![a, n]⟩)
    (hc : (⟨1, ![A]⟩ : Shape).BroadcastsInDim ⟨2, ![A, 1]⟩ (![0] : Fin 1 → Fin 2))
    (hr : (⟨2, ![A, 1]⟩ : Shape).BroadcastsInDim ⟨2, ![A, K]⟩ (![0, 1] : Fin 2 → Fin 2))
    (h3 : (⟨1, ![n]⟩ : Shape).BroadcastsInDim ⟨2, ![1, n]⟩ (![1] : Fin 1 → Fin 2))
    (h4 : (⟨2, ![1, n]⟩ : Shape).BroadcastsInDim ⟨2, ![A, n]⟩ (![0, 1] : Fin 2 → Fin 2))
    (p : Fin a) (q : Fin n) (P : Fin A)
    (hs : ∀ k : Fin K, sB (ix2 p k) = S (ix2 P k)) (hi : iB (ix2 p (0 : Fin 1)) = Ideal.div 1 (D (ix1 P)))
    (hD : D (ix1 P) ≠ 0) (hx : ∀ k : Fin K, xT (ix2 p k) = X (ix2 P k))
    (hwl : ∀ k : Fin K, wl (ix2 k q) = Wl (ix2 k q)) (hwr : ∀ k : Fin K, wr (ix2 k q) = Wr (ix2 k q))
    (hb : rB (ix2 0 q) = B (ix1 q)) :
    addf (addf
        (matmul dB none (truncf .bf16 (mulf (shapeCast ⟨2, ![a, K]⟩ sB g1)
          (broadcastTo ⟨2, ![a, K]⟩ (shapeCast ⟨2, ![a, 1]⟩ iB g2) g3)) hlt) (truncf .bf16 wl hlt)
          (constant ⟨2, ![a, n]⟩ .f32 0x00000000#32))
        (matmul dB none xT (truncf .bf16 wr hlt) (constant ⟨2, ![a, n]⟩ .f32 0x00000000#32)))
        (broadcastTo ⟨2, ![a, n]⟩ (shapeCast ⟨2, ![1, n]⟩ rB h1) h2) (ix2 p q)
      = layer dW hc hr h3 h4 S X D Wl Wr B (ix2 P q) := by
  unfold layer
  simp only [addf]
  rw [Cert.LibMatRows.block_entry dB dW hrB hsB hlcB hrcB hl0B hr1B hrW hsW hlcW hrcW hl0W hr1W
      (Host.divf S (broadcastInDim ⟨2, ![A, K]⟩ ![0, 1] hr (broadcastInDim ⟨2, ![A, 1]⟩ ![0] hc D))) Wl _ _ p q P
      (fun k => scaled_entry sB iB S D g1 g2 g3 hlt hc hr p P k (hs k) hi hD)
      (fun k => by simp only [truncf, Ideal.truncf_def]; exact hwl k),
    Cert.LibMatRows.block_entry dB dW hrB hsB hlcB hrcB hl0B hr1B hrW hsW hlcW hrcW hl0W hr1W X Wr _ _ p q P hx
      (fun k => by simp only [truncf, Ideal.truncf_def]; exact hwr k),
    Cert.LibCombine.blockRow_apply rB h1 h2 p q, Cert.LibCombine.wholeRow_apply _ h4 P q, hb]
  refine congrArg _ (Eq.symm ?_)
  exact broadcastInDim_apply _ h3 B (ix2 0 q) (ix1 q) (fun c => by
    match c with
    | ⟨0, _⟩ => exact Cert.LibCombine.val_eq_ite (n := n) q)

end Cert.LibMeanLayer

end
-- ==== Proof.Spec.lean ====
/-
  The computation both programs perform, as named stages on the extended reals.

  A graph has 100000 nodes with 128 features each and a list of 500000 directed edges (source row, target row of a
  2 × 500000 integer array; a negative source index is read from the end, as array indexing does).  One layer sends
  every edge's source features to its target and adds them up (`sums`), counts each node's incoming edges (`degree`),
  divides each node's sum by its count, at least one (`divisor`), and applies a dense layer to the quotient and to the
  node's own features; the first layer ends with a maximum against zero.  Two layers give 64 numbers per node (`embed`).
  For each pair of a second edge list the score is the inner product of the two nodes' 64 numbers (`score`).
  Gathering and scatter-adding are the host's own operations on both sides; nothing about them is needed.
-/
import proofs.«135223_j69234872812250_2_alg».proof.Proof.Gen.ReferenceIdeal
import proofs.«135223_j69234872812250_2_alg».proof.Proof.LibMeanLayer

noncomputable section

namespace Cert.Spec

open Cert.ReferenceIdeal Cert.ReferenceIdeal.Gen Idealize.ShloMosaic

/-- A float array of shape `S` on the extended reals; an integer array. -/
abbrev FA (S : Shape) := (⟨S, .f32⟩ : BufTy).Contents (Elt Ideal)
abbrev IA (S : Shape) := (⟨S, .i32⟩ : BufTy).Contents (Elt Ideal)

/-- The sources (row 0) and the targets (row 1) of the edge list. -/
def row0E (e : IA S2x500000) : IA S500000 :=
  shapeCast _ (extractStridedSlice S1x500000 ![0, 0] e slices_S2x500000_S1x500000_0_0) shapeCasts_S1x500000_S500000
def row1E (e : IA S2x500000) : IA S500000 :=
  shapeCast _ (extractStridedSlice S1x500000 ![1, 0] e slices_S2x500000_S1x500000_1_0) shapeCasts_S1x500000_S500000

/-- A negative index counts from the end: `i + 100000`. -/
def wrapE (s : IA S500000) : IA S500000 :=
  select (cmpi .slt s (broadcastInDim S500000 ![] bcast_S_S500000 (constantI S_ 32 0#32)))
    (addi s (broadcastInDim S500000 ![] bcast_S_S500000 (constantI S_ 32 100000#32))) s

/-- Every edge's source row added into its target row, from zero. -/
def sums (X : FA S100000x128) (s d : IA S500000) : FA S100000x128 :=
  Host.scatterAdd (F := Ideal) scatter_S100000x128_S500000x1_S500000x128_1_0_0_1
    (broadcastInDim S100000x128 ![] bcast_S_S100000x128 (constant (F := Ideal) S_ .f32 0x00000000#32))
    (broadcastInDim S500000x1 ![0] bcast_S500000_S500000x1_0 d)
    (Host.gather gather_S100000x128_S500000x1_S500000x128_1_0_n_n_0_1_1128 X
      (broadcastInDim S500000x1 ![0] bcast_S500000_S500000x1_0 (wrapE s)))

/-- One added at every edge's target, from zero: the number of incoming edges. -/
def degree (d : IA S500000) : FA S100000 :=
  Host.scatterAdd (F := Ideal) scatter_S100000_S500000x1_S500000_n_0_0_1
    (broadcastInDim S100000 ![] bcast_S_S100000 (constant (F := Ideal) S_ .f32 0x00000000#32))
    (broadcastInDim S500000x1 ![0] bcast_S500000_S500000x1_0 d)
    (broadcastInDim S500000 ![] bcast_S_S500000 (constant (F := Ideal) S_ .f32 0x3F800000#32))

/-- The count, at least one. -/
def divisor (d : IA S500000) : FA S100000 :=
  maximumf (broadcastInDim S100000 ![] bcast_S_S100000 (id (constant (F := Ideal) S_ .f32 0x3F800000#32))) (degree d)

/-- The first layer: `max ((S / D) · Wl + X · Wr + B, 0)`. -/
def layer1 (Sg X : FA S100000x128) (D : FA S100000) (Wl Wr : FA S128x128) (B : FA S128) : FA S100000x128 :=
  maximumf (Cert.LibMeanLayer.layer dot_S100000x128_S128x128_S100000x128_1_0_0_1_n_n bcast_S100000_S100000x1_0
      bcast_S100000x1_S100000x128_0_1 bcast_S128_S1x128_1 bcast_S1x128_S100000x128_0_1 Sg X D Wl Wr B)
    (broadcastInDim S100000x128 ![] bcast_S_S100000x128 (constant (F := Ideal) S_ .f32 0x00000000#32))

/-- The second layer: `(S / D) · Wl + X · Wr + B`. -/
def layer2 (Sg X : FA S100000x128) (D : FA S100000) (Wl Wr : FA S128x64) (B : FA S64) : FA S100000x64 :=
  Cert.LibMeanLayer.layer dot_S100000x128_S128x64_S100000x64_1_0_0_1_n_n bcast_S100000_S100000x1_0
    bcast_S100000x1_S100000x128_0_1 bcast_S64_S1x64_1 bcast_S1x64_S100000x64_0_1 Sg X D Wl Wr B

/-- The hidden features after the first layer, and the 64 numbers per node after the second. -/
def hidden (x0 : FA S100000x128) (e : IA S2x500000) (x4 x5 : FA S128x128) (x6 : FA S128) : FA S100000x128 :=
  layer1 (sums x0 (row0E e) (row1E e)) x0 (divisor (row1E e)) x4 x5 x6
def embed (x0 : FA S100000x128) (e : IA S2x500000) (x4 x5 : FA S128x128) (x6 : FA S128) (x7 x8 : FA S128x64) (x9 : FA S64) :
    FA S100000x64 :=
  layer2 (sums (hidden x0 e x4 x5 x6) (row0E e) (row1E e)) (hidden x0 e x4 x5 x6) (divisor (row1E e)) x7 x8 x9

/-- The two rows of a list of 100000 pairs, and the same reading of a negative index. -/
def row0P (e : IA S2x100000) : IA S100000 :=
  shapeCast _ (extractStridedSlice S1x100000 ![0, 0] e slices_S2x100000_S1x100000_0_0) shapeCasts_S1x100000_S100000
def row1P (e : IA S2x100000) : IA S100000 :=
  shapeCast _ (extractStridedSlice S1x100000 ![1, 0] e slices_S2x100000_S1x100000_1_0) shapeCasts_S1x100000_S100000
def wrapP (s : IA S100000) : IA S100000 :=
  select (cmpi .slt s (broadcastInDim S100000 ![] bcast_S_S100000 (constantI S_ 32 0#32)))
    (addi s (broadcastInDim S100000 ![] bcast_S_S100000 (constantI S_ 32 100000#32))) s

/-- The rows of `Z` the indices name. -/
def rowsOf (Z : FA S100000x64) (s : IA S100000) : FA S100000x64 :=
  Host.gather gather_S100000x64_S100000x1_S100000x64_1_0_n_n_0_1_164 Z
    (broadcastInDim S100000x1 ![0] bcast_S100000_S100000x1_0 (wrapP s))

/-- For each pair, the inner product of its two nodes' rows of `Z`. -/
def score (Z : FA S100000x64) (e : IA S2x100000) : FA S100000 :=
  Host.reduceAdd (F := Ideal) (mulf (rowsOf Z (row0P e)) (rowsOf Z (row1P e))) (constant (F := Ideal) S_ .f32 0x00000000#32)
    reducesTo_S100000x64_S100000_d1 h_S_

end Cert.Spec

end
-- ==== Proof.RefSpec.lean ====
/-
  The reference program computes the named stages: its operations, one after the other, are the specification's.
-/
import proofs.«135223_j69234872812250_2_alg».proof.Proof.Gen.ReferenceIdeal.Read
import proofs.«135223_j69234872812250_2_alg».proof.Proof.Spec

set_option maxRecDepth 8192

noncomputable section

namespace Cert.ReferenceIdeal.RefSpec

open Cert.ReferenceIdeal Cert.ReferenceIdeal.Read Cert.Spec Idealize.ShloMosaic

/-- The reference's first layer is `hidden`. -/
theorem hidden_eq (x0 : FA S100000x128) (x1 : IA S2x500000) (x4 x5 : FA S128x128) (x6 : FA S128) :
    val_main_v28 (F := Ideal) x0 x1 x4 x5 x6 = hidden x0 x1 x4 x5 x6 := rfl

/-- The reference's second layer is `embed` (it counts the incoming edges a second time, the same count). -/
theorem embed_eq (x0 : FA S100000x128) (x1 : IA S2x500000) (x4 x5 : FA S128x128) (x6 : FA S128) (x7 x8 : FA S128x64) (x9 : FA S64) :
    val_main_v52 (F := Ideal) x0 x1 x4 x5 x6 x7 x8 x9 = embed x0 x1 x4 x5 x6 x7 x8 x9 := rfl

/-- The reference's two results are the scores of the two pair lists. -/
theorem out0_eq (x0 : FA S100000x128) (x1 : IA S2x500000) (x2 : IA S2x100000) (x4 x5 : FA S128x128) (x6 : FA S128)
    (x7 x8 : FA S128x64) (x9 : FA S64) :
    val_main_v72 (F := Ideal) x0 x1 x2 x4 x5 x6 x7 x8 x9 = score (embed x0 x1 x4 x5 x6 x7 x8 x9) x2 := rfl
theorem out1_eq (x0 : FA S100000x128) (x1 : IA S2x500000) (x3 : IA S2x100000) (x4 x5 : FA S128x128) (x6 : FA S128)
    (x7 x8 : FA S128x64) (x9 : FA S64) :
    val_main_v92 (F := Ideal) x0 x1 x3 x4 x5 x6 x7 x8 x9 = score (embed x0 x1 x4 x5 x6 x7 x8 x9) x3 := rfl

end Cert.ReferenceIdeal.RefSpec

end
-- ==== Proof.ResultRun.lean ====
/-
  The kernel program's run with its two results named.

  The program is seven segments: three stretches of host operations, the first layer's grid of row blocks, a stretch
  of host operations, the second layer's grid, and the closing stretch that gathers the rows of the two edge lists,
  multiplies them entry by entry and sums each row.  Every weakly fair execution terminates without a fault, and the
  state it ends in holds, at every buffer that outlives a kernel call, the contents folded through the segments from
  the launch memory.  In particular the two result vectors hold the last stretch's results over the second layer's
  output, and the ten arguments are as launched.
-/
import proofs.«135223_j69234872812250_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result vectors at the
    contents the segments fold to (`W7`) and the arguments as launched. -/
theorem run : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_v75) = W7 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       h c _ (mem_uc main_v75 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.ResultRun

end
-- ==== Proof.Layers.lean ====
/-
  The two layers' grids, read as whole matrices.

  Each layer's kernel call walks twenty grid points; point t holds rows 5000·t … 5000·t + 4999 of the neighbour sums,
  of the column of reciprocal degrees and of the features, the whole weight matrices and the bias row, and writes rows
  5000·t … 5000·t + 4999 of the output.  Entry (p, q) of what a point computes is entry (5000·t + p, q) of the whole
  layer (sums / degrees) · Wl + features · Wr + bias (the first layer followed by a maximum with zero): multiplying by
  a reciprocal is dividing when the divisor is not zero, and a product of a block of rows is those rows of the whole
  product.  The twenty blocks tile the 100000 rows, so after the grid the output array is the whole layer.
-/
import proofs.«135223_j69234872812250_2_alg».proof.Proof.Gen.KernelIdeal.Frame
import proofs.«135223_j69234872812250_2_alg».proof.Proof.LibMeanLayer
import Idealize.ShloMosaic.Lib.Pipeline.Value
import Idealize.ShloMosaic.Lib.ValueIdx

set_option maxRecDepth 16384

noncomputable section

namespace Cert.KernelIdeal.LayerValue

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## Layer 1: the grid of row blocks of pipeline 0 -/

/-- The block product's record: the left operand's rows are the result's rows. -/
theorem dB0_l0 (j : S5000x128.Idx) (k : dot_S5000x128_S128x128_S5000x128_1_0_0_1_n_n.contr.Idx) : (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The block product's record: the right operand's columns are the result's columns. -/
theorem dB0_r1 (j : S5000x128.Idx) (k : dot_S5000x128_S128x128_S5000x128_1_0_0_1_n_n.contr.Idx) : (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of what one grid point computes from its blocks is entry `(P, q)` of the whole layer, when row `p` of
    the blocks is row `P` of the matrices, the block's reciprocal at `p` is `1 / D[P]` with `D[P] ≠ 0`, and the weights and
    the bias row are the whole ones. -/
theorem pay0_entry (dW : DotDims S100000x128 S128x128 S100000x128)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val)
    (hc : S100000.BroadcastsInDim S100000x1 (![0] : Fin 1 → Fin 2))
    (hr : S100000x1.BroadcastsInDim S100000x128 (![0, 1] : Fin 2 → Fin 2))
    (h3 : S128.BroadcastsInDim S1x128 (![1] : Fin 1 → Fin 2))
    (h4 : S1x128.BroadcastsInDim S100000x128 (![0, 1] : Fin 2 → Fin 2)) (h5 : S_.BroadcastsInDim S100000x128 (![] : Fin 0 → Fin 2))
    (x0 : Vec Ideal S5000x128 .f32) (x1 : Vec Ideal S5000x1 .f32) (x2 : Vec Ideal S5000x128 .f32)
    (x3 x4 : Vec Ideal S128x128 .f32) (x5 : Vec Ideal S1x128 .f32)
    (Sg X : FVec Ideal S100000x128 .f32) (D : FVec Ideal S100000 .f32) (Wl Wr : FVec Ideal S128x128 .f32) (B : FVec Ideal S128 .f32)
    (p : Fin 5000) (q : Fin 128) (P : Fin 100000)
    (hs : ∀ k : Fin 128, x0 (ix2 p k) = Sg (ix2 P k)) (hi : x1 (ix2 p (0 : Fin 1)) = Ideal.div 1 (D (ix1 P)))
    (hD : D (ix1 P) ≠ 0) (hx : ∀ k : Fin 128, x2 (ix2 p k) = X (ix2 P k))
    (hwl : ∀ k : Fin 128, x3 (ix2 k q) = Wl (ix2 k q)) (hwr : ∀ k : Fin 128, x4 (ix2 k q) = Wr (ix2 k q))
    (hb : x5 (ix2 (0 : Fin 1) q) = B (ix1 q)) :
    k0_pay1 (F := Ideal) x0 x1 x2 x3 x4 x5 (ix2 p q) = maximumf (Cert.LibMeanLayer.layer dW hc hr h3 h4 Sg X D Wl Wr B) (broadcastInDim S100000x128 ![] h5 (constant (F := Ideal) S_ .f32 0x00000000#32)) (ix2 P q) := by
  unfold k0_pay1
  simp only [maximumf]
  refine congrArg₂ FloatOps.maximumf ?_ rfl
  exact Cert.LibMeanLayer.block_entry dot_S5000x128_S128x128_S5000x128_1_0_0_1_n_n dW rfl rfl rfl rfl dB0_l0 dB0_r1 hrW hsW hlcW hrcW hl0W hr1W
    x0 x1 (truncf .bf16 x2 bitsLt_bf16_f32) x3 x4 x5 Sg X D Wl Wr B
    shapeCasts_S5000x128_S5000x128 shapeCasts_S5000x1_S5000x1 broadcasts_S5000x1_S5000x128 bitsLt_bf16_f32
    shapeCasts_S1x128_S1x128 broadcasts_S1x128_S5000x128 hc hr h3 h4 p q P hs hi hD (fun k => by simp only [truncf, Ideal.truncf_def]; exact hx k) hwl hwr hb

/-- The printed index maps over the grid: the three row-blocked inputs and the output take block `t` of their rows at
    point `t`; the weights and the bias row are whole at every point. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section
variable (V : (c : Dev nD) → (b : Ref sig .tc) → Buf (Elt Ideal) ((c : Thread nD τ).loc b))

/-- WHAT POINT `t` WRITES BACK is block `t` of the whole layer over the arrays as the region finds them, when the column
    of reciprocals it finds is `1 / D` with `D` nowhere zero and the bias row it finds is `B`. -/
theorem flushed0_eq (dW : DotDims S100000x128 S128x128 S100000x128)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val)
    (hc : S100000.BroadcastsInDim S100000x1 (![0] : Fin 1 → Fin 2))
    (hr : S100000x1.BroadcastsInDim S100000x128 (![0, 1] : Fin 2 → Fin 2))
    (h3 : S128.BroadcastsInDim S1x128 (![1] : Fin 1 → Fin 2))
    (h4 : S1x128.BroadcastsInDim S100000x128 (![0, 1] : Fin 2 → Fin 2)) (h5 : S_.BroadcastsInDim S100000x128 (![] : Fin 0 → Fin 2)) (c : Dev nD)
    (D : FVec Ideal S100000 .f32) (B : FVec Ideal S128 .f32)
    (hinv : ∀ P : Fin 100000, V c main_v11 (ix2 P (0 : Fin 1)) = Ideal.div 1 (D (ix1 P)))
    (hD : ∀ P : Fin 100000, D (ix1 P) ≠ 0)
    (hbias : ∀ q : Fin 128, V c main_v22 (ix2 (0 : Fin 1) q) = B (ix1 q)) (t : Fin cfg0.N) :
    (dat0 V c).flushed 6 t = ((cfg0.win 6).blk t).view.read (Elt Ideal)
      (maximumf (Cert.LibMeanLayer.layer dW hc hr h3 h4 (V c main_v21) (V c main_arg0) D (V c main_arg4) (V c main_arg5) B) (broadcastInDim S100000x128 ![] h5 (constant (F := Ideal) S_ .f32 0x00000000#32))) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e60, e61⟩ := idx_facts0 t
  have ht : t.val < 20 := t.isLt
  funext j
  have hj0 : (j 0).val < 5000 := (j 0).isLt
  have hj1 : (j 1).val < 128 := (j 1).isLt
  refine (congrArg (k0_pay1 (F := Ideal) (iblk0 V c 0 t) (iblk0 V c 1 t) (iblk0 V c 2 t) (iblk0 V c 3 t) (iblk0 V c 4 t) (iblk0 V c 5 t)) (eq_ix2 j)).trans ?_
  refine (pay0_entry dW hrW hsW hlcW hrcW hl0W hr1W hc hr h3 h4 h5 (iblk0 V c 0 t) (iblk0 V c 1 t) (iblk0 V c 2 t) (iblk0 V c 3 t) (iblk0 V c 4 t) (iblk0 V c 5 t)
    (V c main_v21) (V c main_arg0) D (V c main_arg4) (V c main_arg5) B (j 0) (j 1) ⟨t.val * 5000 + (j 0).val, by omega⟩
    ?_ ?_ (hD _) ?_ ?_ ?_ ?_).trans ?_
  · intro k
    show V c main_v21 (((cfg0.win 0).blk t).view.emb (ix2 (j 0) k)) = _
    refine congrArg (V c main_v21) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 128 + 1 * k.val = k.val; omega
  · refine Eq.trans ?_ (hinv ⟨t.val * 5000 + (j 0).val, by omega⟩)
    show V c main_v11 (((cfg0.win 1).blk t).view.emb (ix2 (j 0) (0 : Fin 1))) = _
    refine congrArg (V c main_v11) (funext fun a => Fin.ext ?_)
    match a with
    | ⟨0, _⟩ => show win0_1.index t (0 : Fin 2) * 5000 + 1 * (j 0).val = t.val * 5000 + (j 0).val; omega
    | ⟨1, _⟩ => show win0_1.index t (1 : Fin 2) * 1 + 1 * 0 = 0; omega
  · intro k
    show V c main_arg0 (((cfg0.win 2).blk t).view.emb (ix2 (j 0) k)) = _
    refine congrArg (V c main_arg0) (funext fun a => Fin.ext ?_)
    match a with
    | ⟨0, _⟩ => show win0_2.index t (0 : Fin 2) * 5000 + 1 * (j 0).val = t.val * 5000 + (j 0).val; omega
    | ⟨1, _⟩ => show win0_2.index t (1 : Fin 2) * 128 + 1 * k.val = k.val; omega
  · intro k
    show V c main_arg4 (((cfg0.win 3).blk t).view.emb (ix2 k (j 1))) = _
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 128 + 1 * (j 1).val = (j 1).val; omega
  · intro k
    show V c main_arg5 (((cfg0.win 4).blk t).view.emb (ix2 k (j 1))) = _
    refine congrArg (V c main_arg5) (funext fun a => Fin.ext ?_)
    match a with
    | ⟨0, _⟩ => show win0_4.index t (0 : Fin 2) * 128 + 1 * k.val = k.val; omega
    | ⟨1, _⟩ => show win0_4.index t (1 : Fin 2) * 128 + 1 * (j 1).val = (j 1).val; omega
  · refine Eq.trans ?_ (hbias (j 1))
    show V c main_v22 (((cfg0.win 5).blk t).view.emb (ix2 (0 : Fin 1) (j 1))) = _
    refine congrArg (V c main_v22) (funext fun a => Fin.ext ?_)
    match a with
    | ⟨0, _⟩ => show win0_5.index t (0 : Fin 2) * 1 + 1 * 0 = 0; omega
    | ⟨1, _⟩ => show win0_5.index t (1 : Fin 2) * 128 + 1 * (j 1).val = (j 1).val; omega
  · show _ = (maximumf (Cert.LibMeanLayer.layer dW hc hr h3 h4 (V c main_v21) (V c main_arg0) D (V c main_arg4) (V c main_arg5) B) (broadcastInDim S100000x128 ![] h5 (constant (F := Ideal) S_ .f32 0x00000000#32))) (((cfg0.win 6).blk t).view.emb j)
    refine congrArg (maximumf (Cert.LibMeanLayer.layer dW hc hr h3 h4 (V c main_v21) (V c main_arg0) D (V c main_arg4) (V c main_arg5) B) (broadcastInDim S100000x128 ![] h5 (constant (F := Ideal) S_ .f32 0x00000000#32))) (funext fun a => Fin.ext ?_)
    match a with
    | ⟨0, _⟩ => show t.val * 5000 + (j 0).val = win0_6.index t (0 : Fin 2) * 5000 + 1 * (j 0).val; omega
    | ⟨1, _⟩ => show (j 1).val = win0_6.index t (1 : Fin 2) * 128 + 1 * (j 1).val; omega

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v23).slice (win0_6.rect t)).set ↔ _
  rw [View.set_slice_whole, Rect.mem_set_unit]
  exact Iff.rfl

/-- Row `r` of the output is written by point `r / 5000`: the twenty blocks of 5000 rows tile the 100000 rows. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 5000 < 20 := by omega
  obtain ⟨-, -, -, -, -, -, -, -, -, -, -, -, e60, e61⟩ := idx_facts0 ⟨(i 0).val / 5000, hlt⟩
  have f60 : win0_6.index ⟨(i 0).val / 5000, hlt⟩ (0 : Fin 2) = (i 0).val / 5000 := e60
  refine ⟨⟨(i 0).val / 5000, hlt⟩, flush0_6 _, ?_⟩
  rw [mem_blk0]
  intro a
  match a with
  | ⟨0, _⟩ => show win0_6.index ⟨(i 0).val / 5000, hlt⟩ (0 : Fin 2) * 5000 ≤ (i 0).val ∧ (i 0).val < win0_6.index ⟨(i 0).val / 5000, hlt⟩ (0 : Fin 2) * 5000 + 5000; omega
  | ⟨1, _⟩ => show win0_6.index ⟨(i 0).val / 5000, hlt⟩ (1 : Fin 2) * 128 ≤ (i 1).val ∧ (i 1).val < win0_6.index ⟨(i 0).val / 5000, hlt⟩ (1 : Fin 2) * 128 + 128; omega

/-- THE LAYER'S OUTPUT ARRAY after the grid is the whole layer over the arrays the region found. -/
theorem array0 (dW : DotDims S100000x128 S128x128 S100000x128)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val)
    (hc : S100000.BroadcastsInDim S100000x1 (![0] : Fin 1 → Fin 2))
    (hr : S100000x1.BroadcastsInDim S100000x128 (![0, 1] : Fin 2 → Fin 2))
    (h3 : S128.BroadcastsInDim S1x128 (![1] : Fin 1 → Fin 2))
    (h4 : S1x128.BroadcastsInDim S100000x128 (![0, 1] : Fin 2 → Fin 2)) (h5 : S_.BroadcastsInDim S100000x128 (![] : Fin 0 → Fin 2)) (c : Dev nD)
    (D : FVec Ideal S100000 .f32) (B : FVec Ideal S128 .f32)
    (hinv : ∀ P : Fin 100000, V c main_v11 (ix2 P (0 : Fin 1)) = Ideal.div 1 (D (ix1 P)))
    (hD : ∀ P : Fin 100000, D (ix1 P) ≠ 0)
    (hbias : ∀ q : Fin 128, V c main_v22 (ix2 (0 : Fin 1) q) = B (ix1 q)) :
    (dat0 V c).arrAt 6 cfg0.N = maximumf (Cert.LibMeanLayer.layer dW hc hr h3 h4 (V c main_v21) (V c main_arg0) D (V c main_arg4) (V c main_arg5) B) (broadcastInDim S100000x128 ![] h5 (constant (F := Ideal) S_ .f32 0x00000000#32)) :=
  (dat0 V c).arrAt_eq_of_cover 6 _ (fun t _ => flushed0_eq V dW hrW hsW hlcW hrcW hl0W hr1W hc hr h3 h4 h5 c D B hinv hD hbias t) (cover0)

end

/-! ## Layer 2: the grid of row blocks of pipeline 1 -/

/-- The block product's record: the left operand's rows are the result's rows. -/
theorem dB1_l0 (j : S5000x64.Idx) (k : dot_S5000x128_S128x64_S5000x64_1_0_0_1_n_n.contr.Idx) : (dot_S5000x128_S128x64_S5000x64_1_0_0_1_n_n.lhsIdx j k 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The block product's record: the right operand's columns are the result's columns. -/
theorem dB1_r1 (j : S5000x64.Idx) (k : dot_S5000x128_S128x64_S5000x64_1_0_0_1_n_n.contr.Idx) : (dot_S5000x128_S128x64_S5000x64_1_0_0_1_n_n.rhsIdx j k 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(p, q)` of what one grid point computes from its blocks is entry `(P, q)` of the whole layer, when row `p` of
    the blocks is row `P` of the matrices, the block's reciprocal at `p` is `1 / D[P]` with `D[P] ≠ 0`, and the weights and
    the bias row are the whole ones. -/
theorem pay1_entry (dW : DotDims S100000x128 S128x64 S100000x64)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val)
    (hc : S100000.BroadcastsInDim S100000x1 (![0] : Fin 1 → Fin 2))
    (hr : S100000x1.BroadcastsInDim S100000x128 (![0, 1] : Fin 2 → Fin 2))
    (h3 : S64.BroadcastsInDim S1x64 (![1] : Fin 1 → Fin 2))
    (h4 : S1x64.BroadcastsInDim S100000x64 (![0, 1] : Fin 2 → Fin 2))
    (x0 : Vec Ideal S5000x128 .f32) (x1 : Vec Ideal S5000x1 .f32) (x2 : Vec Ideal S5000x128 .f32)
    (x3 x4 : Vec Ideal S128x64 .f32) (x5 : Vec Ideal S1x64 .f32)
    (Sg X : FVec Ideal S100000x128 .f32) (D : FVec Ideal S100000 .f32) (Wl Wr : FVec Ideal S128x64 .f32) (B : FVec Ideal S64 .f32)
    (p : Fin 5000) (q : Fin 64) (P : Fin 100000)
    (hs : ∀ k : Fin 128, x0 (ix2 p k) = Sg (ix2 P k)) (hi : x1 (ix2 p (0 : Fin 1)) = Ideal.div 1 (D (ix1 P)))
    (hD : D (ix1 P) ≠ 0) (hx : ∀ k : Fin 128, x2 (ix2 p k) = X (ix2 P k))
    (hwl : ∀ k : Fin 128, x3 (ix2 k q) = Wl (ix2 k q)) (hwr : ∀ k : Fin 128, x4 (ix2 k q) = Wr (ix2 k q))
    (hb : x5 (ix2 (0 : Fin 1) q) = B (ix1 q)) :
    k1_pay1 (F := Ideal) x0 x1 x2 x3 x4 x5 (ix2 p q) = Cert.LibMeanLayer.layer dW hc hr h3 h4 Sg X D Wl Wr B (ix2 P q) := by
  unfold k1_pay1
  exact Cert.LibMeanLayer.block_entry dot_S5000x128_S128x64_S5000x64_1_0_0_1_n_n dW rfl rfl rfl rfl dB1_l0 dB1_r1 hrW hsW hlcW hrcW hl0W hr1W
    x0 x1 (truncf .bf16 (shapeCast S5000x128 x2 shapeCasts_S5000x128_S5000x128) bitsLt_bf16_f32) x3 x4 x5 Sg X D Wl Wr B
    shapeCasts_S5000x128_S5000x128 shapeCasts_S5000x1_S5000x1 broadcasts_S5000x1_S5000x128 bitsLt_bf16_f32
    shapeCasts_S1x64_S1x64 broadcasts_S1x64_S5000x64 hc hr h3 h4 p q P hs hi hD (fun k => by simp only [truncf, Ideal.truncf_def]; rw [shapeCast_self]; exact hx k) hwl hwr hb

/-- The printed index maps over the grid: the three row-blocked inputs and the output take block `t` of their rows at
    point `t`; the weights and the bias row are whole at every point. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section
variable (V : (c : Dev nD) → (b : Ref sig .tc) → Buf (Elt Ideal) ((c : Thread nD τ).loc b))

/-- WHAT POINT `t` WRITES BACK is block `t` of the whole layer over the arrays as the region finds them, when the column
    of reciprocals it finds is `1 / D` with `D` nowhere zero and the bias row it finds is `B`. -/
theorem flushed1_eq (dW : DotDims S100000x128 S128x64 S100000x64)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val)
    (hc : S100000.BroadcastsInDim S100000x1 (![0] : Fin 1 → Fin 2))
    (hr : S100000x1.BroadcastsInDim S100000x128 (![0, 1] : Fin 2 → Fin 2))
    (h3 : S64.BroadcastsInDim S1x64 (![1] : Fin 1 → Fin 2))
    (h4 : S1x64.BroadcastsInDim S100000x64 (![0, 1] : Fin 2 → Fin 2))  (c : Dev nD)
    (D : FVec Ideal S100000 .f32) (B : FVec Ideal S64 .f32)
    (hinv : ∀ P : Fin 100000, V c main_v11 (ix2 P (0 : Fin 1)) = Ideal.div 1 (D (ix1 P)))
    (hD : ∀ P : Fin 100000, D (ix1 P) ≠ 0)
    (hbias : ∀ q : Fin 64, V c main_v34 (ix2 (0 : Fin 1) q) = B (ix1 q)) (t : Fin cfg1.N) :
    (dat1 V c).flushed 6 t = ((cfg1.win 6).blk t).view.read (Elt Ideal)
      (Cert.LibMeanLayer.layer dW hc hr h3 h4 (V c main_v33) (V c main_v23) D (V c main_arg7) (V c main_arg8) B) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x64) hz,
    View.ld_unit_zero (S := S1x64) hz]
  obtain ⟨e00, e01, e10, e11, e20, e21, e30, e31, e40, e41, e50, e51, e60, e61⟩ := idx_facts1 t
  have ht : t.val < 20 := t.isLt
  funext j
  have hj0 : (j 0).val < 5000 := (j 0).isLt
  have hj1 : (j 1).val < 64 := (j 1).isLt
  refine (congrArg (k1_pay1 (F := Ideal) (iblk1 V c 0 t) (iblk1 V c 1 t) (iblk1 V c 2 t) (iblk1 V c 3 t) (iblk1 V c 4 t) (iblk1 V c 5 t)) (eq_ix2 j)).trans ?_
  refine (pay1_entry dW hrW hsW hlcW hrcW hl0W hr1W hc hr h3 h4 (iblk1 V c 0 t) (iblk1 V c 1 t) (iblk1 V c 2 t) (iblk1 V c 3 t) (iblk1 V c 4 t) (iblk1 V c 5 t)
    (V c main_v33) (V c main_v23) D (V c main_arg7) (V c main_arg8) B (j 0) (j 1) ⟨t.val * 5000 + (j 0).val, by omega⟩
    ?_ ?_ (hD _) ?_ ?_ ?_ ?_).trans ?_
  · intro k
    show V c main_v33 (((cfg1.win 0).blk t).view.emb (ix2 (j 0) k)) = _
    refine congrArg (V c main_v33) (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 128 + 1 * k.val = k.val; omega
  · refine Eq.trans ?_ (hinv ⟨t.val * 5000 + (j 0).val, by omega⟩)
    show V c main_v11 (((cfg1.win 1).blk t).view.emb (ix2 (j 0) (0 : Fin 1))) = _
    refine congrArg (V c main_v11) (funext fun a => Fin.ext ?_)
    match a with
    | ⟨0, _⟩ => show win1_1.index t (0 : Fin 2) * 5000 + 1 * (j 0).val = t.val * 5000 + (j 0).val; omega
    | ⟨1, _⟩ => show win1_1.index t (1 : Fin 2) * 1 + 1 * 0 = 0; omega
  · intro k
    show V c main_v23 (((cfg1.win 2).blk t).view.emb (ix2 (j 0) k)) = _
    refine congrArg (V c main_v23) (funext fun a => Fin.ext ?_)
    match a with
    | ⟨0, _⟩ => show win1_2.index t (0 : Fin 2) * 5000 + 1 * (j 0).val = t.val * 5000 + (j 0).val; omega
    | ⟨1, _⟩ => show win1_2.index t (1 : Fin 2) * 128 + 1 * k.val = k.val; omega
  · intro k
    show V c main_arg7 (((cfg1.win 3).blk t).view.emb (ix2 k (j 1))) = _
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 64 + 1 * (j 1).val = (j 1).val; omega
  · intro k
    show V c main_arg8 (((cfg1.win 4).blk t).view.emb (ix2 k (j 1))) = _
    refine congrArg (V c main_arg8) (funext fun a => Fin.ext ?_)
    match a with
    | ⟨0, _⟩ => show win1_4.index t (0 : Fin 2) * 128 + 1 * k.val = k.val; omega
    | ⟨1, _⟩ => show win1_4.index t (1 : Fin 2) * 64 + 1 * (j 1).val = (j 1).val; omega
  · refine Eq.trans ?_ (hbias (j 1))
    show V c main_v34 (((cfg1.win 5).blk t).view.emb (ix2 (0 : Fin 1) (j 1))) = _
    refine congrArg (V c main_v34) (funext fun a => Fin.ext ?_)
    match a with
    | ⟨0, _⟩ => show win1_5.index t (0 : Fin 2) * 1 + 1 * 0 = 0; omega
    | ⟨1, _⟩ => show win1_5.index t (1 : Fin 2) * 64 + 1 * (j 1).val = (j 1).val; omega
  · show _ = (Cert.LibMeanLayer.layer dW hc hr h3 h4 (V c main_v33) (V c main_v23) D (V c main_arg7) (V c main_arg8) B) (((cfg1.win 6).blk t).view.emb j)
    refine congrArg (Cert.LibMeanLayer.layer dW hc hr h3 h4 (V c main_v33) (V c main_v23) D (V c main_arg7) (V c main_arg8) B) (funext fun a => Fin.ext ?_)
    match a with
    | ⟨0, _⟩ => show t.val * 5000 + (j 0).val = win1_6.index t (0 : Fin 2) * 5000 + 1 * (j 0).val; omega
    | ⟨1, _⟩ => show (j 1).val = win1_6.index t (1 : Fin 2) * 64 + 1 * (j 1).val; omega

/-- An index of the output array is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v35).slice (win1_6.rect t)).set ↔ _
  rw [View.set_slice_whole, Rect.mem_set_unit]
  exact Iff.rfl

/-- Row `r` of the output is written by point `r / 5000`: the twenty blocks of 5000 rows tile the 100000 rows. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hlt : (i 0).val / 5000 < 20 := by omega
  obtain ⟨-, -, -, -, -, -, -, -, -, -, -, -, e60, e61⟩ := idx_facts1 ⟨(i 0).val / 5000, hlt⟩
  have f60 : win1_6.index ⟨(i 0).val / 5000, hlt⟩ (0 : Fin 2) = (i 0).val / 5000 := e60
  refine ⟨⟨(i 0).val / 5000, hlt⟩, flush1_6 _, ?_⟩
  rw [mem_blk1]
  intro a
  match a with
  | ⟨0, _⟩ => show win1_6.index ⟨(i 0).val / 5000, hlt⟩ (0 : Fin 2) * 5000 ≤ (i 0).val ∧ (i 0).val < win1_6.index ⟨(i 0).val / 5000, hlt⟩ (0 : Fin 2) * 5000 + 5000; omega
  | ⟨1, _⟩ => show win1_6.index ⟨(i 0).val / 5000, hlt⟩ (1 : Fin 2) * 64 ≤ (i 1).val ∧ (i 1).val < win1_6.index ⟨(i 0).val / 5000, hlt⟩ (1 : Fin 2) * 64 + 64; omega

/-- THE LAYER'S OUTPUT ARRAY after the grid is the whole layer over the arrays the region found. -/
theorem array1 (dW : DotDims S100000x128 S128x64 S100000x64)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val)
    (hc : S100000.BroadcastsInDim S100000x1 (![0] : Fin 1 → Fin 2))
    (hr : S100000x1.BroadcastsInDim S100000x128 (![0, 1] : Fin 2 → Fin 2))
    (h3 : S64.BroadcastsInDim S1x64 (![1] : Fin 1 → Fin 2))
    (h4 : S1x64.BroadcastsInDim S100000x64 (![0, 1] : Fin 2 → Fin 2))  (c : Dev nD)
    (D : FVec Ideal S100000 .f32) (B : FVec Ideal S64 .f32)
    (hinv : ∀ P : Fin 100000, V c main_v11 (ix2 P (0 : Fin 1)) = Ideal.div 1 (D (ix1 P)))
    (hD : ∀ P : Fin 100000, D (ix1 P) ≠ 0)
    (hbias : ∀ q : Fin 64, V c main_v34 (ix2 (0 : Fin 1) q) = B (ix1 q)) :
    (dat1 V c).arrAt 6 cfg1.N = Cert.LibMeanLayer.layer dW hc hr h3 h4 (V c main_v33) (V c main_v23) D (V c main_arg7) (V c main_arg8) B :=
  (dat1 V c).arrAt_eq_of_cover 6 _ (fun t _ => flushed1_eq V dW hrW hsW hlcW hrcW hl0W hr1W hc hr h3 h4 c D B hinv hD hbias t) (cover1)

end

end Cert.KernelIdeal.LayerValue

end
-- ==== Proof.HostStages.lean ====
/-
  The kernel program's host operations between its kernel calls, read as the specification's stages.

  Before the first layer's call the program splits the edge list into sources and targets, counts incoming edges, takes
  the count at least one, divides one by it and lays the reciprocals as a column, gathers and adds up the neighbours'
  features, and lays the first bias as a row.  Between the calls it gathers and adds up the hidden features and lays
  the second bias as a row.  After the second call it scores the two pair lists.  Each stretch is read here from ANY
  contents `W` of the buffers, as a function of the buffers it reads; buffers it does not write keep their contents.
-/
import proofs.«135223_j69234872812250_2_alg».proof.Proof.Gen.KernelIdeal.Frame
import proofs.«135223_j69234872812250_2_alg».proof.Proof.Spec

set_option maxRecDepth 16384

noncomputable section

namespace Cert.KernelIdeal.HostStages

open Cert.KernelIdeal Cert.KernelIdeal.Gen
open Idealize.ShloMosaic Idealize.ShloMosaic.TcCoe Idealize.ShloMosaic.Tactic Idealize.ShloMosaic.StableHlo
open Idealize.SL.Sem

variable (W : Valuation τ sig (Elt Ideal))

/-! ## Before the first layer -/

set_option maxHeartbeats 2000000 in
/-- The neighbours' feature sums. -/
theorem pre_sums : StableHlo.after hostOps0_2 (StableHlo.after hostOps0_1 (StableHlo.after hostOps0 W)) (Proc.devRef .tc main_v21)
    = Cert.Spec.sums (W (Proc.devRef .tc main_arg0)) (Cert.Spec.row0E (W (Proc.devRef .tc main_arg1))) (Cert.Spec.row1E (W (Proc.devRef .tc main_arg1))) := by
  dsimp only [hostOps0, hostOps0_1, hostOps0_2]
  after_results_simp
  rfl

set_option maxHeartbeats 2000000 in
/-- The column of reciprocals: one over the count taken at least one. -/
theorem pre_recip : StableHlo.after hostOps0_2 (StableHlo.after hostOps0_1 (StableHlo.after hostOps0 W)) (Proc.devRef .tc main_v11)
    = shapeCast S100000x1 (Host.divf (F := Ideal) (broadcastInDim S100000 ![] bcast_S_S100000 (constant (F := Ideal) S_ .f32 0x3F800000#32))
        (Cert.Spec.divisor (Cert.Spec.row1E (W (Proc.devRef .tc main_arg1))))) shapeCasts_S100000_S100000x1 := by
  dsimp only [hostOps0, hostOps0_1, hostOps0_2]
  after_results_simp
  simp only [cast_eq]
  rfl

set_option maxHeartbeats 2000000 in
/-- The first bias as a row. -/
theorem pre_bias : StableHlo.after hostOps0_2 (StableHlo.after hostOps0_1 (StableHlo.after hostOps0 W)) (Proc.devRef .tc main_v22) = shapeCast S1x128 (W (Proc.devRef .tc main_arg6)) shapeCasts_S128_S1x128 := by
  dsimp only [hostOps0, hostOps0_1, hostOps0_2]
  after_results_simp
  rfl

set_option maxHeartbeats 2000000 in
/-- The sources and the targets. -/
theorem pre_src : StableHlo.after hostOps0_2 (StableHlo.after hostOps0_1 (StableHlo.after hostOps0 W)) (Proc.devRef .tc main_v1) = Cert.Spec.row0E (W (Proc.devRef .tc main_arg1)) := by
  dsimp only [hostOps0, hostOps0_1, hostOps0_2]
  after_results_simp
  rfl
set_option maxHeartbeats 2000000 in
theorem pre_dst : StableHlo.after hostOps0_2 (StableHlo.after hostOps0_1 (StableHlo.after hostOps0 W)) (Proc.devRef .tc main_v3) = Cert.Spec.row1E (W (Proc.devRef .tc main_arg1)) := by
  dsimp only [hostOps0, hostOps0_1, hostOps0_2]
  after_results_simp
  rfl

/-! Arguments the later segments read are not written. -/
theorem pre_keep_main_arg0 : StableHlo.after hostOps0_2 (StableHlo.after hostOps0_1 (StableHlo.after hostOps0 W)) (Proc.devRef .tc main_arg0) = W (Proc.devRef .tc main_arg0) := by
  dsimp only [hostOps0, hostOps0_1, hostOps0_2, hostOps1, hostOps2]
  after_results_simp
theorem pre_keep_main_arg2 : StableHlo.after hostOps0_2 (StableHlo.after hostOps0_1 (StableHlo.after hostOps0 W)) (Proc.devRef .tc main_arg2) = W (Proc.devRef .tc main_arg2) := by
  dsimp only [hostOps0, hostOps0_1, hostOps0_2, hostOps1, hostOps2]
  after_results_simp
theorem pre_keep_main_arg3 : StableHlo.after hostOps0_2 (StableHlo.after hostOps0_1 (StableHlo.after hostOps0 W)) (Proc.devRef .tc main_arg3) = W (Proc.devRef .tc main_arg3) := by
  dsimp only [hostOps0, hostOps0_1, hostOps0_2, hostOps1, hostOps2]
  after_results_simp
theorem pre_keep_main_arg4 : StableHlo.after hostOps0_2 (StableHlo.after hostOps0_1 (StableHlo.after hostOps0 W)) (Proc.devRef .tc main_arg4) = W (Proc.devRef .tc main_arg4) := by
  dsimp only [hostOps0, hostOps0_1, hostOps0_2, hostOps1, hostOps2]
  after_results_simp
theorem pre_keep_main_arg5 : StableHlo.after hostOps0_2 (StableHlo.after hostOps0_1 (StableHlo.after hostOps0 W)) (Proc.devRef .tc main_arg5) = W (Proc.devRef .tc main_arg5) := by
  dsimp only [hostOps0, hostOps0_1, hostOps0_2, hostOps1, hostOps2]
  after_results_simp
theorem pre_keep_main_arg7 : StableHlo.after hostOps0_2 (StableHlo.after hostOps0_1 (StableHlo.after hostOps0 W)) (Proc.devRef .tc main_arg7) = W (Proc.devRef .tc main_arg7) := by
  dsimp only [hostOps0, hostOps0_1, hostOps0_2, hostOps1, hostOps2]
  after_results_simp
theorem pre_keep_main_arg8 : StableHlo.after hostOps0_2 (StableHlo.after hostOps0_1 (StableHlo.after hostOps0 W)) (Proc.devRef .tc main_arg8) = W (Proc.devRef .tc main_arg8) := by
  dsimp only [hostOps0, hostOps0_1, hostOps0_2, hostOps1, hostOps2]
  after_results_simp
theorem pre_keep_main_arg9 : StableHlo.after hostOps0_2 (StableHlo.after hostOps0_1 (StableHlo.after hostOps0 W)) (Proc.devRef .tc main_arg9) = W (Proc.devRef .tc main_arg9) := by
  dsimp only [hostOps0, hostOps0_1, hostOps0_2, hostOps1, hostOps2]
  after_results_simp

/-! ## Between the layers -/

set_option maxHeartbeats 2000000 in
/-- The neighbours' sums of the hidden features. -/
theorem mid_sums : StableHlo.after hostOps1 W (Proc.devRef .tc main_v33)
    = Cert.Spec.sums (W (Proc.devRef .tc main_v23)) (W (Proc.devRef .tc main_v1)) (W (Proc.devRef .tc main_v3)) := by
  dsimp only [hostOps1]
  after_results_simp
  rfl

set_option maxHeartbeats 2000000 in
/-- The second bias as a row. -/
theorem mid_bias : StableHlo.after hostOps1 W (Proc.devRef .tc main_v34) = shapeCast S1x64 (W (Proc.devRef .tc main_arg9)) shapeCasts_S64_S1x64 := by
  dsimp only [hostOps1]
  after_results_simp
  rfl

theorem mid_keep_main_v11 : StableHlo.after hostOps1 W (Proc.devRef .tc main_v11) = W (Proc.devRef .tc main_v11) := by
  dsimp only [hostOps0, hostOps0_1, hostOps0_2, hostOps1, hostOps2]
  after_results_simp
theorem mid_keep_main_v23 : StableHlo.after hostOps1 W (Proc.devRef .tc main_v23) = W (Proc.devRef .tc main_v23) := by
  dsimp only [hostOps0, hostOps0_1, hostOps0_2, hostOps1, hostOps2]
  after_results_simp
theorem mid_keep_main_arg2 : StableHlo.after hostOps1 W (Proc.devRef .tc main_arg2) = W (Proc.devRef .tc main_arg2) := by
  dsimp only [hostOps0, hostOps0_1, hostOps0_2, hostOps1, hostOps2]
  after_results_simp
theorem mid_keep_main_arg3 : StableHlo.after hostOps1 W (Proc.devRef .tc main_arg3) = W (Proc.devRef .tc main_arg3) := by
  dsimp only [hostOps0, hostOps0_1, hostOps0_2, hostOps1, hostOps2]
  after_results_simp
theorem mid_keep_main_arg7 : StableHlo.after hostOps1 W (Proc.devRef .tc main_arg7) = W (Proc.devRef .tc main_arg7) := by
  dsimp only [hostOps0, hostOps0_1, hostOps0_2, hostOps1, hostOps2]
  after_results_simp
theorem mid_keep_main_arg8 : StableHlo.after hostOps1 W (Proc.devRef .tc main_arg8) = W (Proc.devRef .tc main_arg8) := by
  dsimp only [hostOps0, hostOps0_1, hostOps0_2, hostOps1, hostOps2]
  after_results_simp

/-! ## After the second layer -/

set_option maxHeartbeats 4000000 in
/-- The scores of the two pair lists. -/
theorem tail_out0 : StableHlo.after hostOps2 W (Proc.devRef .tc main_v59) = Cert.Spec.score (W (Proc.devRef .tc main_v35)) (W (Proc.devRef .tc main_arg2)) := by
  dsimp only [hostOps2]
  after_results_simp
  rfl
set_option maxHeartbeats 4000000 in
theorem tail_out1 : StableHlo.after hostOps2 W (Proc.devRef .tc main_v75) = Cert.Spec.score (W (Proc.devRef .tc main_v35)) (W (Proc.devRef .tc main_arg3)) := by
  dsimp only [hostOps2]
  after_results_simp
  rfl

end Cert.KernelIdeal.HostStages

end
-- ==== Proof.Bridge.lean ====
/-
  The kernel program's buffers at each boundary between its segments are the specification's stages of the launch
  arguments.

  Entering the first layer's call: the neighbour sums of the features, the column of reciprocals `1 / divisor`, the
  first bias as a row, the features and the first weights as launched.  Leaving it, the output array is the whole first
  layer (the grid's twenty row blocks tile it; the reciprocal of a divisor that is at least one is a division):
  `hidden`.  Entering the second call: the neighbour sums of `hidden`, the same reciprocals, the second bias as a row,
  `hidden` and the second weights.  Leaving it: `embed`.  The closing stretch scores the two pair lists over `embed`.
-/
import proofs.«135223_j69234872812250_2_alg».proof.Proof.Gen.KernelIdeal.Frame
import proofs.«135223_j69234872812250_2_alg».proof.Proof.Gen.ReferenceIdeal.Read
import proofs.«135223_j69234872812250_2_alg».proof.Proof.ResultRun
import proofs.«135223_j69234872812250_2_alg».proof.Proof.Layers
import proofs.«135223_j69234872812250_2_alg».proof.Proof.HostStages
import proofs.«135223_j69234872812250_2_alg».proof.Proof.Spec
import Idealize.ShloMosaic.PureOps.IdealRules
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.ShloMosaic.StableHlo Idealize.SL.Sem

/-! ## Three facts about the stages -/

/-- The pattern of `1.0` denotes one. -/
theorem one_f32 : Ideal.ofBits .f32 0x3F800000#32 = 1 := IdealRules.sign_bit.ideal_onePat .f32

/-- The divisor is a maximum with one, hence never zero — whatever the count is. -/
theorem divisor_ne_zero (d : Cert.Spec.IA Cert.ReferenceIdeal.S500000) (P : Fin 100000) : Cert.Spec.divisor d (ix1 P) ≠ 0 := by
  unfold Cert.Spec.divisor
  simp only [maximumf, Ideal.maximumf_def, broadcastInDim, constant, id_eq, Ideal.ofBits_def, one_f32]
  exact Cert.LibMeanLayer.max_one_ne_zero _

/-- The column of reciprocals at row `P` is `1 / D[P]`. -/
theorem recip_apply (D : FVec Ideal S100000 .f32) (P : Fin 100000) :
    shapeCast S100000x1 (Host.divf (F := Ideal) (broadcastInDim S100000 ![] bcast_S_S100000 (constant (F := Ideal) S_ .f32 0x3F800000#32)) D)
      shapeCasts_S100000_S100000x1 (ix2 P (0 : Fin 1)) = Ideal.div 1 (D (ix1 P)) := by
  rw [Cert.LibLayout.shapeCast_a_a1_apply _ shapeCasts_S100000_S100000x1 P 0]
  simp only [Host.divf, Ideal.hostDivf_def, broadcastInDim, constant, Ideal.ofBits_def, one_f32]

variable (m : (ℓ : Loc nD τ sig) → Buf (Elt Ideal) ℓ) (ρ : Dev nD → PrngReg) (c : Dev nD)

/-! ## Entering the first layer -/

theorem V3_sums : V3 m ρ c main_v21 = Cert.Spec.sums (m ((c : Thread nD τ).loc main_arg0)) (Cert.Spec.row0E (m ((c : Thread nD τ).loc main_arg1))) (Cert.Spec.row1E (m ((c : Thread nD τ).loc main_arg1))) := HostStages.pre_sums (W0 m ρ c)
theorem V3_recip : V3 m ρ c main_v11 = shapeCast S100000x1 (Host.divf (F := Ideal) (broadcastInDim S100000 ![] bcast_S_S100000 (constant (F := Ideal) S_ .f32 0x3F800000#32)) (Cert.Spec.divisor (Cert.Spec.row1E (m ((c : Thread nD τ).loc main_arg1))))) shapeCasts_S100000_S100000x1 := HostStages.pre_recip (W0 m ρ c)
theorem V3_bias : V3 m ρ c main_v22 = shapeCast S1x128 (m ((c : Thread nD τ).loc main_arg6)) shapeCasts_S128_S1x128 := HostStages.pre_bias (W0 m ρ c)
theorem V3_arg0 : V3 m ρ c main_arg0 = (m ((c : Thread nD τ).loc main_arg0)) := HostStages.pre_keep_main_arg0 (W0 m ρ c)
theorem V3_arg4 : V3 m ρ c main_arg4 = (m ((c : Thread nD τ).loc main_arg4)) := HostStages.pre_keep_main_arg4 (W0 m ρ c)
theorem V3_arg5 : V3 m ρ c main_arg5 = (m ((c : Thread nD τ).loc main_arg5)) := HostStages.pre_keep_main_arg5 (W0 m ρ c)

/-! ## Leaving the first layer -/

/-- The first layer's output array is `hidden` of the launch arguments. -/
theorem hidden_val : W4 m ρ c (Proc.devRef .tc main_v23) = (Cert.Spec.hidden (m ((c : Thread nD τ).loc main_arg0)) (m ((c : Thread nD τ).loc main_arg1)) (m ((c : Thread nD τ).loc main_arg4)) (m ((c : Thread nD τ).loc main_arg5)) (m ((c : Thread nD τ).loc main_arg6))) := by
  refine ((W4_arr m ρ c 6).trans (LayerValue.array0 (V3 m ρ)
    Cert.ReferenceIdeal.dot_S100000x128_S128x128_S100000x128_1_0_0_1_n_n rfl rfl rfl rfl
    Cert.ReferenceIdeal.Read.lhs_main_v22_0 Cert.ReferenceIdeal.Read.rhs_main_v22_1
    Cert.ReferenceIdeal.Gen.bcast_S100000_S100000x1_0 Cert.ReferenceIdeal.Gen.bcast_S100000x1_S100000x128_0_1 Cert.ReferenceIdeal.Gen.bcast_S128_S1x128_1
    Cert.ReferenceIdeal.Gen.bcast_S1x128_S100000x128_0_1 Cert.ReferenceIdeal.Gen.bcast_S_S100000x128 c (Cert.Spec.divisor (Cert.Spec.row1E (m ((c : Thread nD τ).loc main_arg1)))) (m ((c : Thread nD τ).loc main_arg6)) ?_ (fun P => divisor_ne_zero _ P) ?_)).trans ?_
  · intro P
    rw [V3_recip]
    exact recip_apply _ P
  · intro q
    rw [V3_bias]
    exact shapeCast_a_1a_apply _ _ 0 q
  · rw [V3_sums, V3_arg0, V3_arg4, V3_arg5]
    rfl

/-- Buffers the first call does not window keep what the opening stretch left. -/
theorem W4_main_v1 : W4 m ρ c (Proc.devRef .tc main_v1) = (Cert.Spec.row0E (m ((c : Thread nD τ).loc main_arg1))) :=
  (W4_of_ne m ρ c main_v1 (by decide)).trans (HostStages.pre_src (W0 m ρ c))
theorem W4_main_v3 : W4 m ρ c (Proc.devRef .tc main_v3) = (Cert.Spec.row1E (m ((c : Thread nD τ).loc main_arg1))) :=
  (W4_of_ne m ρ c main_v3 (by decide)).trans (HostStages.pre_dst (W0 m ρ c))
theorem W4_main_arg2 : W4 m ρ c (Proc.devRef .tc main_arg2) = (m ((c : Thread nD τ).loc main_arg2)) :=
  (W4_of_ne m ρ c main_arg2 (by decide)).trans (HostStages.pre_keep_main_arg2 (W0 m ρ c))
theorem W4_main_arg3 : W4 m ρ c (Proc.devRef .tc main_arg3) = (m ((c : Thread nD τ).loc main_arg3)) :=
  (W4_of_ne m ρ c main_arg3 (by decide)).trans (HostStages.pre_keep_main_arg3 (W0 m ρ c))
theorem W4_main_arg7 : W4 m ρ c (Proc.devRef .tc main_arg7) = (m ((c : Thread nD τ).loc main_arg7)) :=
  (W4_of_ne m ρ c main_arg7 (by decide)).trans (HostStages.pre_keep_main_arg7 (W0 m ρ c))
theorem W4_main_arg8 : W4 m ρ c (Proc.devRef .tc main_arg8) = (m ((c : Thread nD τ).loc main_arg8)) :=
  (W4_of_ne m ρ c main_arg8 (by decide)).trans (HostStages.pre_keep_main_arg8 (W0 m ρ c))
theorem W4_main_arg9 : W4 m ρ c (Proc.devRef .tc main_arg9) = (m ((c : Thread nD τ).loc main_arg9)) :=
  (W4_of_ne m ρ c main_arg9 (by decide)).trans (HostStages.pre_keep_main_arg9 (W0 m ρ c))
theorem W4_recip : W4 m ρ c (Proc.devRef .tc main_v11) = shapeCast S100000x1 (Host.divf (F := Ideal) (broadcastInDim S100000 ![] bcast_S_S100000 (constant (F := Ideal) S_ .f32 0x3F800000#32)) (Cert.Spec.divisor (Cert.Spec.row1E (m ((c : Thread nD τ).loc main_arg1))))) shapeCasts_S100000_S100000x1 :=
  ((W4_arr m ρ c 1).trans ((dat0 (V3 m ρ) c).arrAt_in 1 rfl _)).trans ((A_eq0 (V3 m ρ) c 1).trans (V3_recip m ρ c))

/-! ## Entering the second layer -/

theorem V5_sums : V5 m ρ c main_v33 = Cert.Spec.sums (Cert.Spec.hidden (m ((c : Thread nD τ).loc main_arg0)) (m ((c : Thread nD τ).loc main_arg1)) (m ((c : Thread nD τ).loc main_arg4)) (m ((c : Thread nD τ).loc main_arg5)) (m ((c : Thread nD τ).loc main_arg6))) (Cert.Spec.row0E (m ((c : Thread nD τ).loc main_arg1))) (Cert.Spec.row1E (m ((c : Thread nD τ).loc main_arg1))) := by
  refine (HostStages.mid_sums (W4 m ρ c)).trans ?_
  rw [hidden_val, W4_main_v1, W4_main_v3]
theorem V5_recip : V5 m ρ c main_v11 = shapeCast S100000x1 (Host.divf (F := Ideal) (broadcastInDim S100000 ![] bcast_S_S100000 (constant (F := Ideal) S_ .f32 0x3F800000#32)) (Cert.Spec.divisor (Cert.Spec.row1E (m ((c : Thread nD τ).loc main_arg1))))) shapeCasts_S100000_S100000x1 :=
  (HostStages.mid_keep_main_v11 (W4 m ρ c)).trans (W4_recip m ρ c)
theorem V5_bias : V5 m ρ c main_v34 = shapeCast S1x64 (m ((c : Thread nD τ).loc main_arg9)) shapeCasts_S64_S1x64 := by
  refine (HostStages.mid_bias (W4 m ρ c)).trans ?_
  rw [W4_main_arg9]
theorem V5_hidden : V5 m ρ c main_v23 = (Cert.Spec.hidden (m ((c : Thread nD τ).loc main_arg0)) (m ((c : Thread nD τ).loc main_arg1)) (m ((c : Thread nD τ).loc main_arg4)) (m ((c : Thread nD τ).loc main_arg5)) (m ((c : Thread nD τ).loc main_arg6))) :=
  (HostStages.mid_keep_main_v23 (W4 m ρ c)).trans (hidden_val m ρ c)
theorem V5_main_arg2 : V5 m ρ c main_arg2 = (m ((c : Thread nD τ).loc main_arg2)) :=
  (HostStages.mid_keep_main_arg2 (W4 m ρ c)).trans (W4_main_arg2 m ρ c)
theorem V5_main_arg3 : V5 m ρ c main_arg3 = (m ((c : Thread nD τ).loc main_arg3)) :=
  (HostStages.mid_keep_main_arg3 (W4 m ρ c)).trans (W4_main_arg3 m ρ c)
theorem V5_main_arg7 : V5 m ρ c main_arg7 = (m ((c : Thread nD τ).loc main_arg7)) :=
  (HostStages.mid_keep_main_arg7 (W4 m ρ c)).trans (W4_main_arg7 m ρ c)
theorem V5_main_arg8 : V5 m ρ c main_arg8 = (m ((c : Thread nD τ).loc main_arg8)) :=
  (HostStages.mid_keep_main_arg8 (W4 m ρ c)).trans (W4_main_arg8 m ρ c)

/-! ## Leaving the second layer -/

/-- The second layer's output array is `embed` of the launch arguments. -/
theorem embed_val : W6 m ρ c (Proc.devRef .tc main_v35) = (Cert.Spec.embed (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine ((W6_arr m ρ c 6).trans (LayerValue.array1 (V5 m ρ)
    Cert.ReferenceIdeal.dot_S100000x128_S128x64_S100000x64_1_0_0_1_n_n rfl rfl rfl rfl
    Cert.ReferenceIdeal.Read.lhs_main_v47_0 Cert.ReferenceIdeal.Read.rhs_main_v47_1
    Cert.ReferenceIdeal.Gen.bcast_S100000_S100000x1_0 Cert.ReferenceIdeal.Gen.bcast_S100000x1_S100000x128_0_1 Cert.ReferenceIdeal.Gen.bcast_S64_S1x64_1
    Cert.ReferenceIdeal.Gen.bcast_S1x64_S100000x64_0_1 c (Cert.Spec.divisor (Cert.Spec.row1E (m ((c : Thread nD τ).loc main_arg1)))) (m ((c : Thread nD τ).loc main_arg9)) ?_ (fun P => divisor_ne_zero _ P) ?_)).trans ?_
  · intro P
    rw [V5_recip]
    exact recip_apply _ P
  · intro q
    rw [V5_bias]
    exact shapeCast_a_1a_apply _ _ 0 q
  · rw [V5_sums, V5_hidden, V5_main_arg7, V5_main_arg8]
    rfl

theorem W6_main_arg2 : W6 m ρ c (Proc.devRef .tc main_arg2) = (m ((c : Thread nD τ).loc main_arg2)) :=
  (W6_of_ne m ρ c main_arg2 (by decide)).trans (V5_main_arg2 m ρ c)
theorem W6_main_arg3 : W6 m ρ c (Proc.devRef .tc main_arg3) = (m ((c : Thread nD τ).loc main_arg3)) :=
  (W6_of_ne m ρ c main_arg3 (by decide)).trans (V5_main_arg3 m ρ c)

/-! ## The results -/

theorem out0_val : W7 m ρ c (Proc.devRef .tc main_v59) = Cert.Spec.score (Cert.Spec.embed (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg2)) := by
  refine (HostStages.tail_out0 (W6 m ρ c)).trans ?_
  rw [embed_val, W6_main_arg2]
theorem out1_val : W7 m ρ c (Proc.devRef .tc main_v75) = Cert.Spec.score (Cert.Spec.embed (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg3)) := by
  refine (HostStages.tail_out1 (W6 m ρ c)).trans ?_
  rw [embed_val, W6_main_arg3]

/-- THE KERNEL PROGRAM'S RUN: every weakly fair execution terminates, nothing faulting, with the two results at the
    scores over `embed` of the launch arguments and the arguments as launched. -/
theorem run : θ_run defs (onTc (τ := τ) (main (F := Ideal))) ⟨m, fun _ => 0, ρ⟩ (fun r => ∀ c : Dev nD,
      r.2.mem ((c.tc : Thread nD τ).loc main_v59) = Cert.Spec.score (Cert.Spec.embed (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg2))
      ∧ r.2.mem ((c.tc : Thread nD τ).loc main_v75) = Cert.Spec.score (Cert.Spec.embed (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (out0_val m ρ c), (h c).2.1.trans (out1_val m ρ c), (h c).2.2⟩)
    (ResultRun.run (F := Ideal) m ρ)

end Cert.KernelIdeal.Bridge

end
-- ==== Proof.lean ====
/-
  Two layers of mean aggregation over a graph, then inner-product scores of node pairs: the Pallas program against
  its plain reference, on the extended reals.

  Both programs gather each edge's source features, add them at the edge's target, count incoming edges, and apply
  `(sums / max(count, 1)) · Wl + features · Wr + bias` twice (a maximum with zero after the first layer); both then
  score two lists of node pairs by the inner product of the two nodes' 64 output numbers.  The gathers, scatter-adds
  and the scoring are the same host operations in both.  They differ in the dense layers: the reference divides the
  sums by the count on the host and takes two whole matrix products; the kernel program forms the column `1 / max(count, 1)`
  on the host and, in twenty blocks of 5000 rows, multiplies each row of sums by its reciprocal and takes the products
  block by block.  On the extended reals `s · (1 / d) = s / d` for every `d ≠ 0`, and `max(count, 1) ≥ 1` whatever the
  count is; a product of a block of rows is those rows of the whole product; so the two programs compute the same
  arrays entry by entry.  No finiteness of the inputs is used.  The idealization rewrote nothing (its ledger is empty).
-/
import proofs.«135223_j69234872812250_2_alg».proof.Defs
import proofs.«135223_j69234872812250_2_alg».proof.Proof.Gen.Kernel
import proofs.«135223_j69234872812250_2_alg».proof.Proof.Gen.Kernel.Skeleton
import proofs.«135223_j69234872812250_2_alg».proof.Proof.Gen.Kernel.Launch
import proofs.«135223_j69234872812250_2_alg».proof.Proof.Gen.Kernel.Points
import proofs.«135223_j69234872812250_2_alg».proof.Proof.Gen.Kernel.Frame
import proofs.«135223_j69234872812250_2_alg».proof.Proof.Gen.KernelIdeal
import proofs.«135223_j69234872812250_2_alg».proof.Proof.Gen.KernelIdeal.Skeleton
import proofs.«135223_j69234872812250_2_alg».proof.Proof.Gen.KernelIdeal.Launch
import proofs.«135223_j69234872812250_2_alg».proof.Proof.Gen.KernelIdeal.Points
import proofs.«135223_j69234872812250_2_alg».proof.Proof.Gen.KernelIdeal.Frame
import proofs.«135223_j69234872812250_2_alg».proof.Proof.Gen.ReferenceIdeal
import proofs.«135223_j69234872812250_2_alg».proof.Proof.Gen.Pre_finite_inputs
import proofs.«135223_j69234872812250_2_alg».proof.Proof.Gen.ReferenceIdeal.Run
import proofs.«135223_j69234872812250_2_alg».proof.Proof.Gen.ReferenceIdeal.Read
import proofs.«135223_j69234872812250_2_alg».proof.Proof.RefSpec
import proofs.«135223_j69234872812250_2_alg».proof.Proof.Bridge
import Idealize.ShloMosaic.Adequacy
import Idealize.ShloMosaic.Init

noncomputable section

namespace Cert.Proof

open Idealize.ShloMosaic Idealize.ShloMosaic.TcCoe Idealize.SL.Sem

/-- The three programs run to the end without a fault and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel program is the printed one read on the extended reals: no operation was rewritten. -/
theorem preserves : Cert.preserves_Kernel_KernelIdeal := trivial

/-- From memories that agree on the arguments both programs end with the same two score vectors: the kernel
    program's are the scores over `embed` of its arguments (its segments read one by one), the reference's results are
    its operations' composed term, which is the same stages of its own arguments. -/
theorem algebraic : Cert.algebraic_KernelIdeal_ReferenceIdeal := by
  intro m ρ m' ρ' _ hagree
  refine ⟨fun c => Cert.Spec.score (Cert.Spec.embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg2)),
    fun c => Cert.Spec.score (Cert.Spec.embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg3)),
    Cert.KernelIdeal.Bridge.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v72_eq, Cert.ReferenceIdeal.RefSpec.out0_eq, (hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  · rw [Cert.ReferenceIdeal.Read.val_main_v92_eq, Cert.ReferenceIdeal.RefSpec.out1_eq, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
